-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512x8x8 : Shape := ⟨4, ![1024, 512, 8, 8]⟩
abbrev S1024 : Shape := ⟨1, ![1024]⟩
abbrev S_ : Shape := ⟨0, ![]⟩

class Facts : Prop where
  bcast_S_S1024x512x8x8 : S_.BroadcastsInDim S1024x512x8x8 (![] : Fin 0 → Fin S1024x512x8x8.rank)
  reducesTo_S1024x512x8x8_S_d0_1_2_3 : S1024x512x8x8.ReducesTo [0, 1, 2, 3] S_
  h_S_ : 0 < S_.numel

variable [Facts]

def fn {F : FTy → Type} [FloatOps F] (main_arg0 : FVec F S1024x512x8x8 .f32) (main_arg1 : IVec S1024 32) : IVec S_ 1 :=
  let main_v0 : FVec F S1024x512x8x8 .f32 := Host.absf main_arg0
  let main_cst : FVec F S_ .f32 := constant S_ .f32 0x7F800000#32
  let main_v1 : FVec F S1024x512x8x8 .f32 := broadcastInDim S1024x512x8x8 ![] bcast_S_S1024x512x8x8 main_cst
  let main_v2 : IVec S1024x512x8x8 1 := cmpf .olt main_v0 main_v1
  let main_c : IVec S_ 1 := constantI S_ 1 1#1
  let main_v3 : IVec S_ 1 := (fun x v => Host.reduce IntOp.andi x v reducesTo_S1024x512x8x8_S_d0_1_2_3 h_S_) main_v2 main_c
  main_v3
-- ==== Kernel.lean ====
abbrev S1024x512x8x8 : Shape := ⟨4, ![1024, 512, 8, 8]⟩
abbrev S1024 : Shape := ⟨1, ![1024]⟩
abbrev S1024x512x64 : Shape := ⟨3, ![1024, 512, 64]⟩
abbrev S1024x512 : Shape := ⟨2, ![1024, 512]⟩
abbrev S32x512x64 : Shape := ⟨3, ![32, 512, 64]⟩
abbrev S32x512 : Shape := ⟨2, ![32, 512]⟩
abbrev S256x512 : Shape := ⟨2, ![256, 512]⟩
abbrev S256 : Shape := ⟨1, ![256]⟩
abbrev S256x1 : Shape := ⟨2, ![256, 1]⟩
abbrev S1024x1 : Shape := ⟨2, ![1024, 1]⟩
abbrev S256x1024 : Shape := ⟨2, ![256, 1024]⟩
abbrev S1x1024 : Shape := ⟨2, ![1, 1024]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S1024x512x8x8, .f32⟩
  | .hbm, ⟨1, _⟩ => ⟨S1024, .i32⟩
  | .hbm, ⟨2, _⟩ => ⟨S1024x512x64, .f32⟩
  | .hbm, ⟨3, _⟩ => ⟨S1024x512, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S32x512x64, .f32⟩
  | .local _ .vmem, ⟨1, _⟩ => ⟨S32x512x64, .f32⟩
  | .local _ .vmem, ⟨2, _⟩ => ⟨S32x512, .f32⟩
  | .local _ .vmem, ⟨3, _⟩ => ⟨S32x512, .f32⟩
  | .local _ .vmem, ⟨4, _⟩ => ⟨S256x512, .f32⟩
  | .local _ .vmem, ⟨5, _⟩ => ⟨S256x512, .f32⟩
  | .local _ .vmem, ⟨6, _⟩ => ⟨S1024x512, .f32⟩
  | .local _ .vmem, ⟨7, _⟩ => ⟨S256, .i32⟩
  | .local _ .vmem, ⟨8, _⟩ => ⟨S256, .i32⟩
  | .local _ .vmem, ⟨9, _⟩ => ⟨S1024, .i32⟩
  | .local _ .vmem, ⟨10, _⟩ => ⟨S256, .f32⟩
  | .local _ .vmem, ⟨11, _⟩ => ⟨S256, .f32⟩
  | _, _ => ⟨S1024x512x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1024x512x8x8_S1024x512x64 : S1024x512x8x8.ShapeCasts S1024x512x64
  inb_S32x512x64_S32x512x64_0_0_0 : ∀ a, (![0, 0, 0] : Fin 3 → Nat) a + S32x512x64.size a ≤ S32x512x64.size a
  h_S32x512x64 : 0 < S32x512x64.numel
  shapeCasts_S32x512x64_S32x512x64 : S32x512x64.ShapeCasts S32x512x64
  reduces_S32x512x64_S32x512 : S32x512x64.Reduces [2] S32x512
  inb_S32x512_S32x512_0_0 : ∀ a, (![0, 0] : Fin 2 → Nat) a + S32x512.size a ≤ S32x512.size a
  h_S32x512 : 0 < S32x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S256x512_S256 : S256x512.Reduces [1] S256
  shapeCasts_S256_S256x1 : S256.ShapeCasts S256x1
  broadcasts_S256x1_S256x512 : S256x1.Broadcasts S256x512
  bitsLt_bf16_f32 : FTy.bits .bf16 < FTy.bits .f32
  reduces_S1024x512_S1024 : S1024x512.Reduces [1] S1024
  shapeCasts_S1024_S1024x1 : S1024.ShapeCasts S1024x1
  broadcasts_S1024x1_S1024x512 : S1024x1.Broadcasts S1024x512
  inb_S256_S256_0 : ∀ a, (![0] : Fin 1 → Nat) a + S256.size a ≤ S256.size a
  h_S256 : 0 < S256.numel
  inb_S1024_S1024_0 : ∀ a, (![0] : Fin 1 → Nat) a + S1024.size a ≤ S1024.size a
  h_S1024 : 0 < S1024.numel
  shapeCasts_S1024_S1x1024 : S1024.ShapeCasts S1x1024
  broadcasts_S256x1_S256x1024 : S256x1.Broadcasts S256x1024
  broadcasts_S1x1024_S256x1024 : S1x1024.Broadcasts S256x1024
  reduces_S256x1024_S256 : S256x1024.Reduces [1] S256
  reducesTo_S1024_S_d0 : S1024.ReducesTo [0] S_
  h_S_ : 0 < S_.numel
  dot_S256x512_S1024x512_S256x1024_1_1_0_0_n_n_wf : DotDims.WF S256x512 S1024x512 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x64.size a ≤ S1024x512x64.size a
  hwx0_0 : ∀ i : grid0.Coords, EltTy.bits .f32 = 32 ∨ (Rect.block (s := S1024x512x64) S32x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S1024x512.size a
  hwx0_1 : ∀ i : grid0.Coords, EltTy.bits .f32 = 32 ∨ (Rect.block (s := S1024x512) S32x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S1024x512.size a
  hwx1_0 : ∀ i : grid1.Coords, EltTy.bits .f32 = 32 ∨ (Rect.block (s := S1024x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S1024.size a
  hwx1_2 : ∀ i : grid1.Coords, EltTy.bits .i32 = 32 ∨ (Rect.block (s := S1024) S256.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .i32 = 32 ∨ (Rect.block (s := S1024) S1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S1024.size a
  hwx1_4 : ∀ i : grid1.Coords, EltTy.bits .f32 = 32 ∨ (Rect.block (s := S1024) S256.size (cc1_transform_4 i) (hinb1_4 i)).WholeWords (EltTy.packing .f32)

variable [Facts₀]

def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf

abbrev win0_0 : Pipeline.Window sig grid0 :=
  Pipeline.Window.ofSpec (Memref.whole main_v0) S32x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x512x8x8 : Shape := ⟨4, ![1024, 512, 8, 8]⟩
abbrev S1024 : Shape := ⟨1, ![1024]⟩
abbrev S_ : Shape := ⟨0, ![]⟩
abbrev S1024x512 : Shape := ⟨2, ![1024, 512]⟩
abbrev S1024x1 : Shape := ⟨2, ![1024, 1]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1024x512x8x8, .f32⟩
  | .hbm, ⟨1, _⟩ => ⟨S1024, .i32⟩
  | .hbm, ⟨2, _⟩ => ⟨S_, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S512x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1, .i32⟩
  | .hbm, ⟨24, _⟩ => ⟨S1x1024, .i32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S_, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S1024x512x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩

abbrev nD : Nat := 1
abbrev τ : Topo := Topo.v7x

variable {F : FTy → Type} [FloatOps F]

class Facts₀ : Prop where
  reducesTo_S1024x512x8x8_S1024x512_d2_3 : S1024x512x8x8.ReducesTo [2, 3] S1024x512
  h_S_ : 0 < S_.numel
  bcast_S_S1024x512 : S_.BroadcastsInDim S1024x512 (![] : Fin 0 → Fin S1024x512.rank)
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  transposes_S1024x512_S512x1024_1_0 : S1024x512.Transposes [1, 0] S512x1024
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  reducesTo_S1024x1024_S1024_d1 : S1024x1024.ReducesTo [1] S1024
  reducesTo_S1024_S_d0 : S1024.ReducesTo [0] S_
  dot_S1024x512_S512x1024_S1024x1024_1_0_0_1_n_n_wf : DotDims.WF S1024x512 S512x1024 S1024x1024 [1] [0] [0] [1] [] []

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

class Facts : Prop extends Facts₀ where

variable [Facts]
-- ==== Proof.KRegion0.lean ====
/-
  The pooling kernel's region. Its grid has 32 points; at point `t` the body reads the block of 32 samples
  `32 t … 32 t + 31` of the feature array laid out `[1024, 512, 64]`, sums each channel's 64 positions, scales by
  2⁻⁶, and stores the `[32, 512]` block of means whole. Stated at any contents `V` of the core's buffers at the
  region's entry: the block each window holds at a point, what the body leaves in the output's staging buffer
  (its one store's payload), the body's triple, and the pipeline's proof data with its body obligation.
-/
import proofs.«157950_j14654428414813_2_alg».proof.Proof.Gen.Kernel.Launch
import proofs.«157950_j14654428414813_2_alg».proof.Proof.Gen.Kernel.Skeleton
import proofs.«157950_j14654428414813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_in : Rect S32x512x64 := Rect.unit (s := S32x512x64) ![0, 0, 0] S32x512x64.size inb_S32x512x64_S32x512x64_0_0_0
abbrev r0_out : Rect S32x512 := Rect.unit (s := S32x512) ![0, 0] S32x512.size inb_S32x512_S32x512_0_0

/-- The output's staging buffer after the body: its one store, the block of means of the loaded block. -/
def out0_1 (x0 : Vec F S32x512x64 .f32) : Vec F S32x512 .f32 :=
  View.canon [⟨r0_out, k0_pay1 (View.ld x0 r0_in)⟩]

/-- The store covers the buffer. -/
theorem cover0_1 (p0 : Vec F S32x512 .f32) (y : S32x512.Idx) :
    ∃ pc ∈ ([⟨r0_out, p0⟩] : List (View.Piece (Elt F) S32x512 .f32)), y ∈ pc.1.set :=
  View.cover_of_tiled [⟨r0_out, p0⟩] S32x512.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg0 : Memref sig .tc .vmem S32x512x64 .f32) (harg0 : arg0.IsWhole) (arg1 : Memref sig .tc .vmem S32x512 .f32) (harg1 : arg1.IsWhole)
    (x0 : Vec F S32x512x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__mean_kernel i arg0 harg0 arg1 harg1) K := by
  simp only [cc0__mean_kernel_eq_skeleton]; unfold cc0__mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the pooling pipeline on core `c`: the arrays as the region finds them; after the body at
    point `t` the input's buffer at its block and the output's at the block's means; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The loss kernel's region. Its grid has 4 points; at point `t` the body reads the block of 256 pooled rows
  `256 t … 256 t + 255` and their 256 labels, and beside them the WHOLE pooled array and the whole label vector
  (two more windows on the same two arrays, whose one block is the array), and stores the 256 row losses whole.
  The pooled array and the label vector are each read through two windows: each of the two holds half of the
  array's share. Stated at any contents `V` of the core's buffers at the region's entry.
-/
import proofs.«157950_j14654428414813_2_alg».proof.Proof.Gen.Kernel.Launch
import proofs.«157950_j14654428414813_2_alg».proof.Proof.Gen.Kernel.Skeleton
import proofs.«157950_j14654428414813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not (the two whole-array
    windows are fetched once: their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_rows : Rect S256x512 := Rect.unit (s := S256x512) ![0, 0] S256x512.size inb_S256x512_S256x512_0_0
abbrev r1_all : Rect S1024x512 := Rect.unit (s := S1024x512) ![0, 0] S1024x512.size inb_S1024x512_S1024x512_0_0
abbrev r1_labs : Rect S256 := Rect.unit (s := S256) ![0] S256.size inb_S256_S256_0
abbrev r1_alllabs : Rect S1024 := Rect.unit (s := S1024) ![0] S1024.size inb_S1024_S1024_0

/-- The output's staging buffer after the body: its one store, the 256 row losses of the loaded blocks. -/
def out1_4 (x0 : Vec F S256x512 .f32) (x1 : Vec F S1024x512 .f32) (x2 : Vec F S256 .i32) (x3 : Vec F S1024 .i32) : Vec F S256 .f32 :=
  View.canon [⟨r1_labs, k1_pay1 (View.ld x0 r1_rows) (View.ld x1 r1_all) (View.ld x2 r1_labs) (View.ld x3 r1_alllabs)⟩]

/-- The store covers the buffer. -/
theorem cover1_4 (p0 : Vec F S256 .f32) (y : S256.Idx) :
    ∃ pc ∈ ([⟨r1_labs, p0⟩] : List (View.Piece (Elt F) S256 .f32)), y ∈ pc.1.set :=
  View.cover_of_tiled [⟨r1_labs, p0⟩] S256.size (by rfl) y

set_option maxHeartbeats 2000000 in
/-- The body on whole staging memrefs, the four inputs' at contents `x0 … x3` and the output's at anything, runs
    to the continuation holding the inputs' as they were and the output's at `out1_4 x0 x1 x2 x3`. -/
theorem sound_kernel1 (c : Dev nD) (E : Set ℕ) (i : grid1.Coords)
    (arg1 : Memref sig .tc .vmem S256x512 .f32) (harg1 : arg1.IsWhole) (arg2 : Memref sig .tc .vmem S1024x512 .f32) (harg2 : arg2.IsWhole)
    (arg3 : Memref sig .tc .vmem S256 .i32) (harg3 : arg3.IsWhole) (arg4 : Memref sig .tc .vmem S1024 .i32) (harg4 : arg4.IsWhole)
    (arg5 : Memref sig .tc .vmem S256 .f32) (harg5 : arg5.IsWhole)
    (x0 : Vec F S256x512 .f32) (x1 : Vec F S1024x512 .f32) (x2 : Vec F S256 .i32) (x3 : Vec F S1024 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__loss_kernel i arg1 harg1 arg2 harg2 arg3 harg3 arg4 harg4 arg5 harg5) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the loss pipeline on core `c`: the arrays as the region finds them; after the body at point
    `t` each input's buffer at its block and the output's at the blocks' row losses; the invariant the scoped rest
    and the generator register, untouched; nothing owed. The pooled array's share is dealt to its two windows, left
    half and right half, and so is the label vector's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion1Arrays.lean ====
/-
  The loss region's arrays. Its five windows stand on three distinct buffers: the pooled array (two windows), the
  label vector (two windows) and the vector of row losses (one). Held whole at the full share, the three buffers are
  exactly the five windows' holdings: the two windows on one buffer hold the left and the right half of its share
  at the same contents.
-/
import proofs.«157950_j14654428414813_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's windows, one by one. -/
theorem arrBufs1_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v1) ↦{fullShare} U main_v1) ∗ (((c : Thread nD τ).loc main_arg1) ↦{fullShare} U main_arg1)
          ∗ (((c : Thread nD τ).loc main_v2) ↦{fullShare} U main_v2)) := by
  unfold Pipeline.arrBufs
  exact bigSep_eq_bigSepL_of_eq [main_v1, main_arg1, main_v2] (by decide) (by decide) _

/-- The five windows' holdings, one by one, each at its share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v1) ↦{fullShare.left} G 0) ∗ (((c : Thread nD τ).loc main_v1) ↦{fullShare.right} G 1)
          ∗ (((c : Thread nD τ).loc main_arg1) ↦{fullShare.left} G 2) ∗ (((c : Thread nD τ).loc main_arg1) ↦{fullShare.right} G 3)
          ∗ (((c : Thread nD τ).loc main_v2) ↦{fullShare} G 4)) := by
  unfold Dat.arrays
  rw [bigSep_W1]
  rw [(arr_whole1 0).set_eq_univ, (arr_whole1 2).set_eq_univ, (arr_whole1 4).set_eq_univ]
  rfl

/-- The three buffers held whole deal out the five windows' holdings, when each window's contents are its
    buffer's. -/
theorem arrays1_of_bufs (c : Dev nD) (U : (b : Ref sig .tc) → Buf (Elt F) ((c : Thread nD τ).loc b))
    (G : (w : Fin cfg1.W) → Buf (Elt F) ((cfg1.win w).arr.view.loc (c.tc : Thread nD τ)))
    (h0 : G 0 = U main_v1) (h1 : G 1 = U main_v1) (h2 : G 2 = U main_arg1) (h3 : G 3 = U main_arg1) (h4 : G 4 = U main_v2) :
    (Pipeline.arrBufs (Ix := Unit) (Name := ℕ) (U := UR sig nD τ) (Lvl := ℕ) spec1 c U : sProp 𝕄) ⊢ (dat1 V c).arrays G := by
  rw [arrBufs1_eq, arrays1_eq, h0, h1, h2, h3, h4]
  have hsa : ((((c : Thread nD τ).loc main_v1) ↦{fullShare} U main_v1) : sProp 𝕄)
      ⊢ iprop((((c : Thread nD τ).loc main_v1) ↦{fullShare.left} U main_v1) ∗ (((c : Thread nD τ).loc main_v1) ↦{fullShare.right} U main_v1)) :=
    (pointsTo_share (PosShare.mem_left_op_right fullShare)).1
  have hsb : ((((c : Thread nD τ).loc main_arg1) ↦{fullShare} U main_arg1) : sProp 𝕄)
      ⊢ iprop((((c : Thread nD τ).loc main_arg1) ↦{fullShare.left} U main_arg1) ∗ (((c : Thread nD τ).loc main_arg1) ↦{fullShare.right} U main_arg1)) :=
    (pointsTo_share (PosShare.mem_left_op_right fullShare)).1
  iintro ⟨Ha, Hb, Hd⟩
  ihave Ha' := hsa $$ Ha
  icases Ha' with ⟨Ha1, Ha2⟩
  ihave Hb' := hsb $$ Hb
  icases Hb' with ⟨Hb1, Hb2⟩
  isplitl [Ha1]; · iexact Ha1
  isplitl [Ha2]; · iexact Ha2
  isplitl [Hb1]; · iexact Hb1
  isplitl [Hb2]; · iexact Hb2
  iexact Hd

/-- And the five holdings join back into the three buffers held whole. -/
theorem bufs_of_arrays1 (c : Dev nD) (U : (b : Ref sig .tc) → Buf (Elt F) ((c : Thread nD τ).loc b))
    (G : (w : Fin cfg1.W) → Buf (Elt F) ((cfg1.win w).arr.view.loc (c.tc : Thread nD τ)))
    (h0 : G 0 = U main_v1) (h1 : G 1 = U main_v1) (h2 : G 2 = U main_arg1) (h3 : G 3 = U main_arg1) (h4 : G 4 = U main_v2) :
    ((dat1 V c).arrays G : sProp 𝕄) ⊢ Pipeline.arrBufs (Ix := Unit) (Name := ℕ) (U := UR sig nD τ) (Lvl := ℕ) spec1 c U := by
  rw [arrBufs1_eq, arrays1_eq, h0, h1, h2, h3, h4]
  have hja : (iprop((((c : Thread nD τ).loc main_v1) ↦{fullShare.left} U main_v1) ∗ (((c : Thread nD τ).loc main_v1) ↦{fullShare.right} U main_v1)) : sProp 𝕄)
      ⊢ (((c : Thread nD τ).loc main_v1) ↦{fullShare} U main_v1) :=
    (pointsTo_share (PosShare.mem_left_op_right fullShare)).2
  have hjb : (iprop((((c : Thread nD τ).loc main_arg1) ↦{fullShare.left} U main_arg1) ∗ (((c : Thread nD τ).loc main_arg1) ↦{fullShare.right} U main_arg1)) : sProp 𝕄)
      ⊢ (((c : Thread nD τ).loc main_arg1) ↦{fullShare} U main_arg1) :=
    (pointsTo_share (PosShare.mem_left_op_right fullShare)).2
  iintro ⟨Ha1, Ha2, Hb1, Hb2, Hd⟩
  isplitl [Ha1 Ha2]
  · iapply hja
    isplitl [Ha1]; · iexact Ha1
    iexact Ha2
  isplitl [Hb1 Hb2]
  · iapply hjb
    isplitl [Hb1]; · iexact Hb1
    iexact Hb2
  iexact Hd

/-- The core's unscoped buffers are the region's three buffers and the rest. -/
theorem unscopedBufs1_split (c : Dev nD) (U : (b : Ref sig .tc) → Buf (Elt F) ((c : Thread nD τ).loc b)) :
    (unscopedBufs (Ix := Unit) (Name := ℕ) (U := UR sig nD τ) (Lvl := ℕ) c U : sProp 𝕄)
      = iprop(Pipeline.arrBufs (Ix := Unit) (Name := ℕ) (U := UR sig nD τ) (Lvl := ℕ) spec1 c U
          ∗ Pipeline.unscopedRest (Ix := Unit) (Name := ℕ) (U := UR sig nD τ) (Lvl := ℕ) spec1 c U) := by
  unfold unscopedBufs Pipeline.unscopedRest Pipeline.arrBufs
  rw [bigSep_sdiff_split (by decide : Finset.univ.image (Pipeline.arrRef spec1) ⊆ Finset.univ.filter fun b : Ref sig .tc => ¬ b.isScoped)]
  rfl

end Cert.Kernel.Hand

end
-- ==== Proof.KRun.lean ====
/-
  The run of the whole program on a core: one reshape on the host, the pooling region, the loss region, and the
  mean of the row losses on the host. The core's unscoped buffers are followed through the four items: after the
  reshape (`W1`), with the pooled array as the pooling pipeline leaves it (`W2`), with the row losses as the loss
  pipeline leaves them (`W3`), after the mean (`W4`). Every weakly fair execution terminates without a fault and
  every unscoped buffer ends holding `W4`; in particular the two arguments end as launched.
-/
import proofs.«157950_j14654428414813_2_alg».proof.Proof.KRegion0
import proofs.«157950_j14654428414813_2_alg».proof.Proof.KRegion1Arrays
import proofs.«157950_j14654428414813_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, -/
abbrev W0 : Dev nD → Valuation τ sig (Elt F) := fun c b => m ((c : Dev nD), b)
/-- after the reshape (the pooling region's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the pooling region's exit: its arrays at what the pipeline leaves, every other buffer as entered, -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- at the loss region's exit: the vector of row losses at what the pipeline leaves, every other buffer as entered, -/
def W3 (c : Dev nD) : Valuation τ sig (Elt F) :=
  Function.update (W2 m c) (Proc.devRef .tc main_v2) ((dat1 (V2 m) c).arrAt 4 cfg1.N)
theorem W3_v2 (c : Dev nD) : W3 m c (Proc.devRef .tc main_v2) = (dat1 (V2 m) c).arrAt 4 cfg1.N := by
  unfold W3; exact Function.update_self ..
theorem W3_of_ne (c : Dev nD) (b : Ref sig .tc) (hb : b ≠ main_v2) :
    W3 m c (Proc.devRef .tc b) = W2 m c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m c b
/-- and after the mean. -/
abbrev W4 : Dev nD → Valuation τ sig (Elt F) := fun c => StableHlo.after hostOps2 (W3 m c)

/-! ## The arguments end as launched -/

theorem W4_of (c : Dev nD) (r : Ref sig .tc) (h : r ∉ hostOps2_W) : W4 m c r = W3 m c r :=
  StableHlo.after_of_writes_sub hostOps2 _ hostOps2_writes h
theorem W1_of (c : Dev nD) (r : Ref sig .tc) (h : r ∉ hostOps0_W) : W1 m c r = W0 m c r :=
  StableHlo.after_of_writes_sub hostOps0 _ hostOps0_writes h

theorem W4_main_arg0 (c : Dev nD) : W4 m c (Proc.devRef .tc main_arg0) = m ((c : Thread nD τ).loc main_arg0) :=
  (W4_of m c main_arg0 (by decide)).trans <| (W3_of_ne m c main_arg0 (by decide)).trans <|
    (W2_of_ne m c main_arg0 (by decide)).trans <| (W1_of m c main_arg0 (by decide)).trans rfl
theorem W4_main_arg1 (c : Dev nD) : W4 m c (Proc.devRef .tc main_arg1) = m ((c : Thread nD τ).loc main_arg1) :=
  (W4_of m c main_arg1 (by decide)).trans <| (W3_of_ne m c main_arg1 (by decide)).trans <|
    (W2_of_ne m c main_arg1 (by decide)).trans <| (W1_of m c main_arg1 (by decide)).trans rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The pooling region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the loss region's exit its inputs hold what they held at entry and its output what the pipeline leaves. -/
theorem hG1 (c : Dev nD) :
    (dat1 (V2 m) c).arrAt 0 cfg1.N = V3 m c main_v1 ∧ (dat1 (V2 m) c).arrAt 1 cfg1.N = V3 m c main_v1
    ∧ (dat1 (V2 m) c).arrAt 2 cfg1.N = V3 m c main_arg1 ∧ (dat1 (V2 m) c).arrAt 3 cfg1.N = V3 m c main_arg1
    ∧ (dat1 (V2 m) c).arrAt 4 cfg1.N = V3 m c main_v2 :=
  ⟨(((dat1 (V2 m) c).arrAt_in 0 rfl _).trans (A_eq1 (V2 m) c 0)).trans (W3_of_ne m c main_v1 (by decide)).symm,
   (((dat1 (V2 m) c).arrAt_in 1 rfl _).trans (A_eq1 (V2 m) c 1)).trans (W3_of_ne m c main_v1 (by decide)).symm,
   (((dat1 (V2 m) c).arrAt_in 2 rfl _).trans (A_eq1 (V2 m) c 2)).trans (W3_of_ne m c main_arg1 (by decide)).symm,
   (((dat1 (V2 m) c).arrAt_in 3 rfl _).trans (A_eq1 (V2 m) c 3)).trans (W3_of_ne m c main_arg1 (by decide)).symm,
   (W3_v2 m c).symm⟩

set_option backward.isDefEq.respectTransparency.types false in
/-- The loss region: entered from every unscoped buffer at `W2`, left at `W3`. The pooled array and the label
    vector are split between their two windows at entry and joined again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs (Ix := Unit) (Name := ℕ) (U := UR sig nD τ) (Lvl := ℕ) c (V2 m c) : sProp 𝕄)
        ⊢ iprop((pdats m 1 c).arrays ((pdats m 1 c).arrAt · 0)
            ∗ Pipeline.unscopedRest (Ix := Unit) (Name := ℕ) (U := UR sig nD τ) (Lvl := ℕ) spec1 c (V2 m c)) := by
      rw [unscopedBufs1_split c (V2 m c)]
      exact sep_mono (arrays1_of_bufs (V2 m) c (V2 m c) _ rfl rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (iprop((pdats m 1 c).arrays ((pdats m 1 c).arrAt · cfg1.N)
            ∗ Pipeline.unscopedRest (Ix := Unit) (Name := ℕ) (U := UR sig nD τ) (Lvl := ℕ) spec1 c (V2 m c)) : sProp 𝕄)
        ⊢ unscopedBufs (Ix := Unit) (Name := ℕ) (U := UR sig nD τ) (Lvl := ℕ) c (V3 m c) := by
      rw [unscopedBufs1_split c (V3 m c)]
      refine sep_mono (bufs_of_arrays1 (V2 m) c (V3 m c) _ (hG1 m c).1 (hG1 m c).2.1 (hG1 m c).2.2.1 (hG1 m c).2.2.2.1 (hG1 m c).2.2.2.2) (Entails.of_eq ?_)
      unfold Pipeline.unscopedRest
      exact bigSep_congr fun b hb => by
        rw [show V3 m c b = V2 m c b from W3_of_ne m c b fun e => (Finset.mem_sdiff.mp hb).2 (e ▸ Finset.mem_image.mpr ⟨4, Finset.mem_univ _, rfl⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and every final state holds every unscoped buffer at `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.Region0.lean ====
/-
  The pooling kernel's region. Its grid has 32 points; at point `t` the body reads the block of 32 samples
  `32 t … 32 t + 31` of the feature array laid out `[1024, 512, 64]`, sums each channel's 64 positions, scales by
  2⁻⁶, and stores the `[32, 512]` block of means whole. Stated at any contents `V` of the core's buffers at the
  region's entry: the block each window holds at a point, what the body leaves in the output's staging buffer
  (its one store's payload), the body's triple, and the pipeline's proof data with its body obligation.
-/
import proofs.«157950_j14654428414813_2_alg».proof.Proof.Gen.KernelIdeal.Launch
import proofs.«157950_j14654428414813_2_alg».proof.Proof.Gen.KernelIdeal.Skeleton
import proofs.«157950_j14654428414813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_in : Rect S32x512x64 := Rect.unit (s := S32x512x64) ![0, 0, 0] S32x512x64.size inb_S32x512x64_S32x512x64_0_0_0
abbrev r0_out : Rect S32x512 := Rect.unit (s := S32x512) ![0, 0] S32x512.size inb_S32x512_S32x512_0_0

/-- The output's staging buffer after the body: its one store, the block of means of the loaded block. -/
def out0_1 (x0 : Vec F S32x512x64 .f32) : Vec F S32x512 .f32 :=
  View.canon [⟨r0_out, k0_pay1 (View.ld x0 r0_in)⟩]

/-- The store covers the buffer. -/
theorem cover0_1 (p0 : Vec F S32x512 .f32) (y : S32x512.Idx) :
    ∃ pc ∈ ([⟨r0_out, p0⟩] : List (View.Piece (Elt F) S32x512 .f32)), y ∈ pc.1.set :=
  View.cover_of_tiled [⟨r0_out, p0⟩] S32x512.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg0 : Memref sig .tc .vmem S32x512x64 .f32) (harg0 : arg0.IsWhole) (arg1 : Memref sig .tc .vmem S32x512 .f32) (harg1 : arg1.IsWhole)
    (x0 : Vec F S32x512x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__mean_kernel i arg0 harg0 arg1 harg1) K := by
  simp only [cc0__mean_kernel_eq_skeleton]; unfold cc0__mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the pooling pipeline on core `c`: the arrays as the region finds them; after the body at
    point `t` the input's buffer at its block and the output's at the block's means; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The loss kernel's region. Its grid has 4 points; at point `t` the body reads the block of 256 pooled rows
  `256 t … 256 t + 255` and their 256 labels, and beside them the WHOLE pooled array and the whole label vector
  (two more windows on the same two arrays, whose one block is the array), and stores the 256 row losses whole.
  The pooled array and the label vector are each read through two windows: each of the two holds half of the
  array's share. Stated at any contents `V` of the core's buffers at the region's entry.
-/
import proofs.«157950_j14654428414813_2_alg».proof.Proof.Gen.KernelIdeal.Launch
import proofs.«157950_j14654428414813_2_alg».proof.Proof.Gen.KernelIdeal.Skeleton
import proofs.«157950_j14654428414813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not (the two whole-array
    windows are fetched once: their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_rows : Rect S256x512 := Rect.unit (s := S256x512) ![0, 0] S256x512.size inb_S256x512_S256x512_0_0
abbrev r1_all : Rect S1024x512 := Rect.unit (s := S1024x512) ![0, 0] S1024x512.size inb_S1024x512_S1024x512_0_0
abbrev r1_labs : Rect S256 := Rect.unit (s := S256) ![0] S256.size inb_S256_S256_0
abbrev r1_alllabs : Rect S1024 := Rect.unit (s := S1024) ![0] S1024.size inb_S1024_S1024_0

/-- The output's staging buffer after the body: its one store, the 256 row losses of the loaded blocks. -/
def out1_4 (x0 : Vec F S256x512 .f32) (x1 : Vec F S1024x512 .f32) (x2 : Vec F S256 .i32) (x3 : Vec F S1024 .i32) : Vec F S256 .f32 :=
  View.canon [⟨r1_labs, k1_pay1 (View.ld x0 r1_rows) (View.ld x1 r1_all) (View.ld x2 r1_labs) (View.ld x3 r1_alllabs)⟩]

/-- The store covers the buffer. -/
theorem cover1_4 (p0 : Vec F S256 .f32) (y : S256.Idx) :
    ∃ pc ∈ ([⟨r1_labs, p0⟩] : List (View.Piece (Elt F) S256 .f32)), y ∈ pc.1.set :=
  View.cover_of_tiled [⟨r1_labs, p0⟩] S256.size (by rfl) y

set_option maxHeartbeats 2000000 in
/-- The body on whole staging memrefs, the four inputs' at contents `x0 … x3` and the output's at anything, runs
    to the continuation holding the inputs' as they were and the output's at `out1_4 x0 x1 x2 x3`. -/
theorem sound_kernel1 (c : Dev nD) (E : Set ℕ) (i : grid1.Coords)
    (arg1 : Memref sig .tc .vmem S256x512 .f32) (harg1 : arg1.IsWhole) (arg2 : Memref sig .tc .vmem S1024x512 .f32) (harg2 : arg2.IsWhole)
    (arg3 : Memref sig .tc .vmem S256 .i32) (harg3 : arg3.IsWhole) (arg4 : Memref sig .tc .vmem S1024 .i32) (harg4 : arg4.IsWhole)
    (arg5 : Memref sig .tc .vmem S256 .f32) (harg5 : arg5.IsWhole)
    (x0 : Vec F S256x512 .f32) (x1 : Vec F S1024x512 .f32) (x2 : Vec F S256 .i32) (x3 : Vec F S1024 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__loss_kernel i arg1 harg1 arg2 harg2 arg3 harg3 arg4 harg4 arg5 harg5) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the loss pipeline on core `c`: the arrays as the region finds them; after the body at point
    `t` each input's buffer at its block and the output's at the blocks' row losses; the invariant the scoped rest
    and the generator register, untouched; nothing owed. The pooled array's share is dealt to its two windows, left
    half and right half, and so is the label vector's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region1Arrays.lean ====
/-
  The loss region's arrays. Its five windows stand on three distinct buffers: the pooled array (two windows), the
  label vector (two windows) and the vector of row losses (one). Held whole at the full share, the three buffers are
  exactly the five windows' holdings: the two windows on one buffer hold the left and the right half of its share
  at the same contents.
-/
import proofs.«157950_j14654428414813_2_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's windows, one by one. -/
theorem arrBufs1_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v1) ↦{fullShare} U main_v1) ∗ (((c : Thread nD τ).loc main_arg1) ↦{fullShare} U main_arg1)
          ∗ (((c : Thread nD τ).loc main_v2) ↦{fullShare} U main_v2)) := by
  unfold Pipeline.arrBufs
  exact bigSep_eq_bigSepL_of_eq [main_v1, main_arg1, main_v2] (by decide) (by decide) _

/-- The five windows' holdings, one by one, each at its share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v1) ↦{fullShare.left} G 0) ∗ (((c : Thread nD τ).loc main_v1) ↦{fullShare.right} G 1)
          ∗ (((c : Thread nD τ).loc main_arg1) ↦{fullShare.left} G 2) ∗ (((c : Thread nD τ).loc main_arg1) ↦{fullShare.right} G 3)
          ∗ (((c : Thread nD τ).loc main_v2) ↦{fullShare} G 4)) := by
  unfold Dat.arrays
  rw [bigSep_W1]
  rw [(arr_whole1 0).set_eq_univ, (arr_whole1 2).set_eq_univ, (arr_whole1 4).set_eq_univ]
  rfl

/-- The three buffers held whole deal out the five windows' holdings, when each window's contents are its
    buffer's. -/
theorem arrays1_of_bufs (c : Dev nD) (U : (b : Ref sig .tc) → Buf (Elt F) ((c : Thread nD τ).loc b))
    (G : (w : Fin cfg1.W) → Buf (Elt F) ((cfg1.win w).arr.view.loc (c.tc : Thread nD τ)))
    (h0 : G 0 = U main_v1) (h1 : G 1 = U main_v1) (h2 : G 2 = U main_arg1) (h3 : G 3 = U main_arg1) (h4 : G 4 = U main_v2) :
    (Pipeline.arrBufs (Ix := Unit) (Name := ℕ) (U := UR sig nD τ) (Lvl := ℕ) spec1 c U : sProp 𝕄) ⊢ (dat1 V c).arrays G := by
  rw [arrBufs1_eq, arrays1_eq, h0, h1, h2, h3, h4]
  have hsa : ((((c : Thread nD τ).loc main_v1) ↦{fullShare} U main_v1) : sProp 𝕄)
      ⊢ iprop((((c : Thread nD τ).loc main_v1) ↦{fullShare.left} U main_v1) ∗ (((c : Thread nD τ).loc main_v1) ↦{fullShare.right} U main_v1)) :=
    (pointsTo_share (PosShare.mem_left_op_right fullShare)).1
  have hsb : ((((c : Thread nD τ).loc main_arg1) ↦{fullShare} U main_arg1) : sProp 𝕄)
      ⊢ iprop((((c : Thread nD τ).loc main_arg1) ↦{fullShare.left} U main_arg1) ∗ (((c : Thread nD τ).loc main_arg1) ↦{fullShare.right} U main_arg1)) :=
    (pointsTo_share (PosShare.mem_left_op_right fullShare)).1
  iintro ⟨Ha, Hb, Hd⟩
  ihave Ha' := hsa $$ Ha
  icases Ha' with ⟨Ha1, Ha2⟩
  ihave Hb' := hsb $$ Hb
  icases Hb' with ⟨Hb1, Hb2⟩
  isplitl [Ha1]; · iexact Ha1
  isplitl [Ha2]; · iexact Ha2
  isplitl [Hb1]; · iexact Hb1
  isplitl [Hb2]; · iexact Hb2
  iexact Hd

/-- And the five holdings join back into the three buffers held whole. -/
theorem bufs_of_arrays1 (c : Dev nD) (U : (b : Ref sig .tc) → Buf (Elt F) ((c : Thread nD τ).loc b))
    (G : (w : Fin cfg1.W) → Buf (Elt F) ((cfg1.win w).arr.view.loc (c.tc : Thread nD τ)))
    (h0 : G 0 = U main_v1) (h1 : G 1 = U main_v1) (h2 : G 2 = U main_arg1) (h3 : G 3 = U main_arg1) (h4 : G 4 = U main_v2) :
    ((dat1 V c).arrays G : sProp 𝕄) ⊢ Pipeline.arrBufs (Ix := Unit) (Name := ℕ) (U := UR sig nD τ) (Lvl := ℕ) spec1 c U := by
  rw [arrBufs1_eq, arrays1_eq, h0, h1, h2, h3, h4]
  have hja : (iprop((((c : Thread nD τ).loc main_v1) ↦{fullShare.left} U main_v1) ∗ (((c : Thread nD τ).loc main_v1) ↦{fullShare.right} U main_v1)) : sProp 𝕄)
      ⊢ (((c : Thread nD τ).loc main_v1) ↦{fullShare} U main_v1) :=
    (pointsTo_share (PosShare.mem_left_op_right fullShare)).2
  have hjb : (iprop((((c : Thread nD τ).loc main_arg1) ↦{fullShare.left} U main_arg1) ∗ (((c : Thread nD τ).loc main_arg1) ↦{fullShare.right} U main_arg1)) : sProp 𝕄)
      ⊢ (((c : Thread nD τ).loc main_arg1) ↦{fullShare} U main_arg1) :=
    (pointsTo_share (PosShare.mem_left_op_right fullShare)).2
  iintro ⟨Ha1, Ha2, Hb1, Hb2, Hd⟩
  isplitl [Ha1 Ha2]
  · iapply hja
    isplitl [Ha1]; · iexact Ha1
    iexact Ha2
  isplitl [Hb1 Hb2]
  · iapply hjb
    isplitl [Hb1]; · iexact Hb1
    iexact Hb2
  iexact Hd

/-- The core's unscoped buffers are the region's three buffers and the rest. -/
theorem unscopedBufs1_split (c : Dev nD) (U : (b : Ref sig .tc) → Buf (Elt F) ((c : Thread nD τ).loc b)) :
    (unscopedBufs (Ix := Unit) (Name := ℕ) (U := UR sig nD τ) (Lvl := ℕ) c U : sProp 𝕄)
      = iprop(Pipeline.arrBufs (Ix := Unit) (Name := ℕ) (U := UR sig nD τ) (Lvl := ℕ) spec1 c U
          ∗ Pipeline.unscopedRest (Ix := Unit) (Name := ℕ) (U := UR sig nD τ) (Lvl := ℕ) spec1 c U) := by
  unfold unscopedBufs Pipeline.unscopedRest Pipeline.arrBufs
  rw [bigSep_sdiff_split (by decide : Finset.univ.image (Pipeline.arrRef spec1) ⊆ Finset.univ.filter fun b : Ref sig .tc => ¬ b.isScoped)]
  rfl

end Cert.KernelIdeal.Hand

end
-- ==== Proof.Run.lean ====
/-
  The run of the whole program on a core: one reshape on the host, the pooling region, the loss region, and the
  mean of the row losses on the host. The core's unscoped buffers are followed through the four items: after the
  reshape (`W1`), with the pooled array as the pooling pipeline leaves it (`W2`), with the row losses as the loss
  pipeline leaves them (`W3`), after the mean (`W4`). Every weakly fair execution terminates without a fault and
  every unscoped buffer ends holding `W4`; in particular the two arguments end as launched.
-/
import proofs.«157950_j14654428414813_2_alg».proof.Proof.Region0
import proofs.«157950_j14654428414813_2_alg».proof.Proof.Region1Arrays
import proofs.«157950_j14654428414813_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, -/
abbrev W0 : Dev nD → Valuation τ sig (Elt F) := fun c b => m ((c : Dev nD), b)
/-- after the reshape (the pooling region's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the pooling region's exit: its arrays at what the pipeline leaves, every other buffer as entered, -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- at the loss region's exit: the vector of row losses at what the pipeline leaves, every other buffer as entered, -/
def W3 (c : Dev nD) : Valuation τ sig (Elt F) :=
  Function.update (W2 m c) (Proc.devRef .tc main_v2) ((dat1 (V2 m) c).arrAt 4 cfg1.N)
theorem W3_v2 (c : Dev nD) : W3 m c (Proc.devRef .tc main_v2) = (dat1 (V2 m) c).arrAt 4 cfg1.N := by
  unfold W3; exact Function.update_self ..
theorem W3_of_ne (c : Dev nD) (b : Ref sig .tc) (hb : b ≠ main_v2) :
    W3 m c (Proc.devRef .tc b) = W2 m c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m c b
/-- and after the mean. -/
abbrev W4 : Dev nD → Valuation τ sig (Elt F) := fun c => StableHlo.after hostOps2 (W3 m c)

/-! ## The arguments end as launched -/

theorem W4_of (c : Dev nD) (r : Ref sig .tc) (h : r ∉ hostOps2_W) : W4 m c r = W3 m c r :=
  StableHlo.after_of_writes_sub hostOps2 _ hostOps2_writes h
theorem W1_of (c : Dev nD) (r : Ref sig .tc) (h : r ∉ hostOps0_W) : W1 m c r = W0 m c r :=
  StableHlo.after_of_writes_sub hostOps0 _ hostOps0_writes h

theorem W4_main_arg0 (c : Dev nD) : W4 m c (Proc.devRef .tc main_arg0) = m ((c : Thread nD τ).loc main_arg0) :=
  (W4_of m c main_arg0 (by decide)).trans <| (W3_of_ne m c main_arg0 (by decide)).trans <|
    (W2_of_ne m c main_arg0 (by decide)).trans <| (W1_of m c main_arg0 (by decide)).trans rfl
theorem W4_main_arg1 (c : Dev nD) : W4 m c (Proc.devRef .tc main_arg1) = m ((c : Thread nD τ).loc main_arg1) :=
  (W4_of m c main_arg1 (by decide)).trans <| (W3_of_ne m c main_arg1 (by decide)).trans <|
    (W2_of_ne m c main_arg1 (by decide)).trans <| (W1_of m c main_arg1 (by decide)).trans rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The pooling region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the loss region's exit its inputs hold what they held at entry and its output what the pipeline leaves. -/
theorem hG1 (c : Dev nD) :
    (dat1 (V2 m) c).arrAt 0 cfg1.N = V3 m c main_v1 ∧ (dat1 (V2 m) c).arrAt 1 cfg1.N = V3 m c main_v1
    ∧ (dat1 (V2 m) c).arrAt 2 cfg1.N = V3 m c main_arg1 ∧ (dat1 (V2 m) c).arrAt 3 cfg1.N = V3 m c main_arg1
    ∧ (dat1 (V2 m) c).arrAt 4 cfg1.N = V3 m c main_v2 :=
  ⟨(((dat1 (V2 m) c).arrAt_in 0 rfl _).trans (A_eq1 (V2 m) c 0)).trans (W3_of_ne m c main_v1 (by decide)).symm,
   (((dat1 (V2 m) c).arrAt_in 1 rfl _).trans (A_eq1 (V2 m) c 1)).trans (W3_of_ne m c main_v1 (by decide)).symm,
   (((dat1 (V2 m) c).arrAt_in 2 rfl _).trans (A_eq1 (V2 m) c 2)).trans (W3_of_ne m c main_arg1 (by decide)).symm,
   (((dat1 (V2 m) c).arrAt_in 3 rfl _).trans (A_eq1 (V2 m) c 3)).trans (W3_of_ne m c main_arg1 (by decide)).symm,
   (W3_v2 m c).symm⟩

set_option backward.isDefEq.respectTransparency.types false in
/-- The loss region: entered from every unscoped buffer at `W2`, left at `W3`. The pooled array and the label
    vector are split between their two windows at entry and joined again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs (Ix := Unit) (Name := ℕ) (U := UR sig nD τ) (Lvl := ℕ) c (V2 m c) : sProp 𝕄)
        ⊢ iprop((pdats m 1 c).arrays ((pdats m 1 c).arrAt · 0)
            ∗ Pipeline.unscopedRest (Ix := Unit) (Name := ℕ) (U := UR sig nD τ) (Lvl := ℕ) spec1 c (V2 m c)) := by
      rw [unscopedBufs1_split c (V2 m c)]
      exact sep_mono (arrays1_of_bufs (V2 m) c (V2 m c) _ rfl rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (iprop((pdats m 1 c).arrays ((pdats m 1 c).arrAt · cfg1.N)
            ∗ Pipeline.unscopedRest (Ix := Unit) (Name := ℕ) (U := UR sig nD τ) (Lvl := ℕ) spec1 c (V2 m c)) : sProp 𝕄)
        ⊢ unscopedBufs (Ix := Unit) (Name := ℕ) (U := UR sig nD τ) (Lvl := ℕ) c (V3 m c) := by
      rw [unscopedBufs1_split c (V3 m c)]
      refine sep_mono (bufs_of_arrays1 (V2 m) c (V3 m c) _ (hG1 m c).1 (hG1 m c).2.1 (hG1 m c).2.2.1 (hG1 m c).2.2.2.1 (hG1 m c).2.2.2.2) (Entails.of_eq ?_)
      unfold Pipeline.unscopedRest
      exact bigSep_congr fun b hb => by
        rw [show V3 m c b = V2 m c b from W3_of_ne m c b fun e => (Finset.mem_sdiff.mp hb).2 (e ▸ Finset.mem_image.mpr ⟨4, Finset.mem_univ _, rfl⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and every final state holds every unscoped buffer at `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.Spec.lean ====
/-
  The contrastive loss as one function of the feature array and the labels, on the extended reals.

  A feature array `x : [1024, 512, 8, 8]` is pooled over its two spatial axes: `pooled x r q` is the sum of the
  64 spatial entries of channel `q` of sample `r`, times 2⁻⁶. Each pooled row is scaled to unit length by the larger of
  its Euclidean norm and a small ε (`nrm`, `unit`); `sim f i j` is the inner product of the unit rows `i` and `j`;
  `ex f i j = exp (2 · sim f i j)`. Row `i`'s loss is `0 − log (pos / den)`, where `den` sums `ex f i j` over all
  `j` and `pos` over the `j` carrying row `i`'s label. The programs' result is the mean of the 1024 row losses.
-/
import Idealize.ShloMosaic.PureOps.Ideal
import Idealize.ShloMosaic.Lib.ValueIdx

noncomputable section

namespace Cert.Spec

open Idealize.ShloMosaic Idealize.ShloMosaic.ValueIdx

/-- The feature array's shape, the pooled array's and the label vector's. -/
abbrev SX : Shape := ⟨4, ![1024, 512, 8, 8]⟩
abbrev SF : Shape := ⟨2, ![1024, 512]⟩
abbrev SL : Shape := ⟨1, ![1024]⟩

/-- 2⁻⁶, the reciprocal of the 64 pooled positions; the norm's floor ε; the inverse temperature 2; and zero. -/
def c64 : EReal := Ideal.ofBits .f32 0x3C800000#32
def eps : EReal := Ideal.ofBits .f32 0x322BCC77#32
def two : EReal := Ideal.ofBits .f32 0x40000000#32
def zero : EReal := Ideal.ofBits .f32 0x00000000#32

/-- The spatial mean of channel `q` of sample `r`: the 64 positions `(k / 8, k % 8)` summed, times 2⁻⁶. -/
def pooled (x : SX.Idx → EReal) (r : Fin 1024) (q : Fin 512) : EReal :=
  (∑ k : Fin 64, x (ix4 r q (⟨k.val / 8, by omega⟩ : Fin 8) (⟨k.val % 8, by omega⟩ : Fin 8))) * c64

/-- The pooled features as an array `[1024, 512]`. -/
def pooledArr (x : SX.Idx → EReal) : SF.Idx → EReal :=
  fun j => pooled x ⟨(j 0).val, (j 0).isLt⟩ ⟨(j 1).val, (j 1).isLt⟩

/-- Row `j`'s norm, floored at ε. -/
def nrm (f : SF.Idx → EReal) (j : Fin 1024) : EReal :=
  max (Ideal.sqrt (∑ c : Fin 512, f (ix2 j c) * f (ix2 j c))) eps

/-- Row `j` scaled to unit length, at column `c`. -/
def unit (f : SF.Idx → EReal) (j : Fin 1024) (c : Fin 512) : EReal := Ideal.div (f (ix2 j c)) (nrm f j)

/-- The cosine similarity of rows `i` and `j`. -/
def sim (f : SF.Idx → EReal) (i j : Fin 1024) : EReal := ∑ c : Fin 512, unit f i c * unit f j c

/-- `exp (2 · sim)`. -/
def ex (f : SF.Idx → EReal) (i j : Fin 1024) : EReal := Ideal.exp (sim f i j * two)

/-- The sum of `ex f i j` over the rows `j` that carry row `i`'s label, -/
def pos (f : SF.Idx → EReal) (lab : SL.Idx → BitVec 32) (i : Fin 1024) : EReal :=
  ∑ j : Fin 1024, (if lab (ix1 i) = lab (ix1 j) then ex f i j else zero)

/-- and over all rows. -/
def den (f : SF.Idx → EReal) (i : Fin 1024) : EReal := ∑ j : Fin 1024, ex f i j

/-- Row `i`'s loss. -/
def rowLoss (f : SF.Idx → EReal) (lab : SL.Idx → BitVec 32) (i : Fin 1024) : EReal :=
  zero - Ideal.log (Ideal.div (pos f lab i) (den f i))

/-- The 1024 row losses of a feature array and its labels, as a vector. -/
def lossVec (x : SX.Idx → EReal) (lab : SL.Idx → BitVec 32) : SL.Idx → EReal :=
  fun i => rowLoss (pooledArr x) lab ⟨(i 0).val, (i 0).isLt⟩

theorem pooledArr_ix2 (x : SX.Idx → EReal) (r : Fin 1024) (q : Fin 512) : pooledArr x (ix2 r q) = pooled x r q := rfl

theorem lossVec_ix1 (x : SX.Idx → EReal) (lab : SL.Idx → BitVec 32) (i : Fin 1024) :
    lossVec x lab (ix1 i) = rowLoss (pooledArr x) lab i := rfl

end Cert.Spec

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«157950_j14654428414813_2_alg».proof.Proof.LibRows
import proofs.«157950_j14654428414813_2_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.LibLinTile.lean ====
/-
  A tile of a linear layer and its column statistics, read entry by entry over the extended reals.

  * A matrix product whose two operands are both contracted along their LAST axis (dimension numbers
    `[1] × [1]`, no batch axes, free axes `[0]` and `[0]`): an `M × K` by `N × K` product accumulated into the
    zero matrix is, at entry `(a, b)`, `Σ_k l (a, k) · r (b, k)` — the left operand times the transpose of the
    right one. The dimension-number record is a variable with its six lists given by hypotheses.
  * A column `[m, 1]` broadcast along the second axis reads `(r, 0)` at `(r, c)`.
  * The sum of an `[m, n]` matrix along its first axis is, at column `c`, `Σ_p v (p, c)`; recast as a row
    `[1, n]` and added to a row it gives the running column sums.
  * The tile itself: with `agg, h : [m, K]`, a column `d : [m, 1]`, weights `wl, wr : [n, K]` and a bias row
    `b : [1, n]`, the value `((agg ∘ d) · wlᵀ + h · wrᵀ) + b` (operands passed through a change of format, which
    is the identity on the extended reals) is, at `(p, q)`,
    `(Σ_k (agg (p, k) · d (p, 0)) · wl (q, k) + Σ_k h (p, k) · wr (q, k)) + b (0, q)`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibLinTile

open Idealize.ShloMosaic Idealize.ShloMosaic.ValueIdx

/-! ## The product with both operands contracted on their last axis -/

section Matmul

variable {M K N : Nat} (D : DotDims ⟨2, ![M, K]⟩ ⟨2, ![N, K]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `0`, the right operand's row is the result's column. -/
theorem rhs_row (hln : D.lhsNonContracting = [0]) (hrn : D.rhsNonContracting = [0]) (hlb : D.lhsBatch = [])
    (hrb : D.rhsBatch = []) (j : (⟨2, ![M, N]⟩ : Shape).Idx) (q : D.contr.Idx) : (D.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- An `M × K` by `N × K` product, both contracted on the last axis, into the zero matrix, at entry `(a, b)`:
    `Σ_k l (a, k) · r (b, k)`. -/
theorem matmul_zero_apply {φ₁ φ₂ : FTy}
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (a : Fin M) (b : Fin N) :
    FloatOps.matmul D prec l r (constant (F := Ideal) ⟨2, ![M, N]⟩ .f32 0x00000000#32) (ix2 a b)
      = ∑ k : Fin K, l (ix2 a k) * r (ix2 b k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 b k :=
    funext fun c => Fin.ext (by
      match c with
      | ⟨0, _⟩ => exact rhs_row D hln hrn hlb hrb _ _
      | ⟨1, _⟩ => exact (D.rhsIdx_val_of_single hrc _ _).trans hk)
  rw [el, er]

end Matmul

/-! ## A column broadcast along the rows' entries -/

/-- A column `[m, 1]` broadcast to `[m, n]`, read at `(r, c)`, is the column at `(r, 0)`. -/
theorem bcast_col {α : Type} {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r (0 : Fin 1)) :=
  broadcastTo_apply v h (ix2 r c) (ix2 r (0 : Fin 1)) (fun a => match a with
    | ⟨0, _⟩ => by show r.val = (if m = 1 then 0 else r.val); rw [if_neg hm]
    | ⟨1, _⟩ => by show 0 = (if (1 : ℕ) = 1 then 0 else c.val); rw [if_pos rfl])

/-! ## Sums down the columns -/

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (lift_col h c k)

/-- A row plus the column sums of a matrix kept as a row: at `(0, c)` the row's entry plus `Σ_p v (p, c)`. -/
theorem addColSum_apply {m n : ℕ} (row : FVec Ideal (⟨2, ![1, n]⟩ : Shape) .f32) (v : FVec Ideal (⟨2, ![m, n]⟩ : Shape) .f32)
    (acc : BitVec 32) (h : (⟨2, ![m, n]⟩ : Shape).Reduces [0] (⟨1, ![n]⟩ : Shape)) (hφ : FKind.Formats .f32)
    (hacc : acc = FKind.add.neutral .f32 hφ) (hc : (⟨1, ![n]⟩ : Shape).ShapeCasts ⟨2, ![1, n]⟩) (c : Fin n) :
    addf row (shapeCast ⟨2, ![1, n]⟩ (multiReduction .add [0] (⟨1, ![n]⟩ : Shape) v acc h hφ hacc) hc) (ix2 (0 : Fin 1) c)
      = row (ix2 (0 : Fin 1) c) + ∑ p : Fin m, v (ix2 p c) :=
  (addf_apply _ _ _).trans (congrArg (row (ix2 (0 : Fin 1) c) + ·)
    ((shapeCast_a_1a_apply _ hc 0 c).trans (colSum_apply v acc h hφ hacc c)))

/-! ## The tile -/

/-- The tile's value at `(p, q)`. -/
theorem tile_apply {m K n : ℕ} (D : DotDims ⟨2, ![m, K]⟩ ⟨2, ![n, K]⟩ ⟨2, ![m, n]⟩)
    (hlc : D.lhsContracting = [1]) (hrc : D.rhsContracting = [1]) (hln : D.lhsNonContracting = [0])
    (hrn : D.rhsNonContracting = [0]) (hlb : D.lhsBatch = []) (hrb : D.rhsBatch = [])
    (hm : m ≠ 1)
    (agg h : FVec Ideal ⟨2, ![m, K]⟩ .f32) (d : FVec Ideal ⟨2, ![m, 1]⟩ .f32) (wl wr : FVec Ideal ⟨2, ![n, K]⟩ .f32)
    (b : FVec Ideal ⟨2, ![1, n]⟩ .f32)
    (hbc : (⟨2, ![m, 1]⟩ : Shape).Broadcasts ⟨2, ![m, K]⟩) (hbr : (⟨2, ![1, n]⟩ : Shape).Broadcasts ⟨2, ![m, n]⟩)
    (hlt : FTy.bits .bf16 < FTy.bits .f32) (p : Fin m) (q : Fin n) :
    addf (addf
        (matmul D none (truncf .bf16 (mulf agg (broadcastTo ⟨2, ![m, K]⟩ d hbc)) hlt) (truncf .bf16 wl hlt)
          (constant (F := Ideal) ⟨2, ![m, n]⟩ .f32 0x00000000#32))
        (matmul D none (truncf .bf16 h hlt) (truncf .bf16 wr hlt) (constant (F := Ideal) ⟨2, ![m, n]⟩ .f32 0x00000000#32)))
      (broadcastTo ⟨2, ![m, n]⟩ b hbr) (ix2 p q)
      = ((∑ k : Fin K, (agg (ix2 p k) * d (ix2 p (0 : Fin 1))) * wl (ix2 q k)) + ∑ k : Fin K, h (ix2 p k) * wr (ix2 q k))
          + b (ix2 (0 : Fin 1) q) := by
  refine (addf_apply _ _ _).trans ?_
  refine congrArg₂ (· + ·) ((addf_apply _ _ _).trans (congrArg₂ (· + ·) ?_ ?_)) (broadcastTo_1b_ab_apply b hbr p q)
  · refine (matmul_zero_apply D hlc hrc hln hrn hlb hrb none _ _ p q).trans ?_
    refine Finset.sum_congr rfl fun k _ => ?_
    show (agg (ix2 p k) * broadcastTo ⟨2, ![m, K]⟩ d hbc (ix2 p k)) * wl (ix2 q k) = _
    rw [bcast_col hm d hbc p k]
  · exact matmul_zero_apply D hlc hrc hln hrn hlb hrb none _ _ p q

end Cert.LibLinTile

end
-- ==== Proof.LibCoordinateLayout.lean ====
/-
  Layout operations, one-axis sums and total sums read at coordinates.

  General facts, independent of any program, for reading a vector expression at an index written by its
  coordinates:

  * a shape cast that inserts unit axes — `[a, b] → [a, 1, b]`, `[a, b] → [a, b, 1, 1]`, `[a, b] → [1, 1, a, b]`,
    `[a] → [a, 1]` — reads the operand at the index with the unit coordinates removed;
  * a broadcast along unit axes — `[1, b, c] → [a, b, c]`, `[a, 1, c] → [a, b, c]`, `[a, b, 1, 1] → [a, b, c, d]`,
    `[1, 1, c, d] → [a, b, c, d]` — reads the operand at `0` on those axes;
  * a sum of extended reals along one axis — the last axis of a rank-3 or rank-4 array, either axis of a matrix
    with a unit column — is the `Fin`-indexed sum of the source with the coordinate inserted;
  * a square root, exponential, `log (1 + ·)` and absolute value of a vector of extended reals act element by element;
  * a sum over a rank-4 index set in a commutative monoid is the fourfold sum over the coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibCoordinateLayout

open Idealize.ShloMosaic Idealize.ShloMosaic.ValueIdx

variable {α : Type}

/-! ## Shape casts that insert unit axes, read at coordinates

A shape cast keeps the row-major position. Inserting axes of extent one multiplies the position by one and adds
zero, so the element at the longer index is the element at the index with the unit coordinates removed. -/

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1, 1]` reads, at `(i, j, u, w)`, the operand at `(i, j)`. -/
theorem shapeCast_ab_ab11_apply {a b : ℕ} (x : (⟨2, ![a, b]⟩ : Shape).Idx → α)
    (h : (⟨2, ![a, b]⟩ : Shape).ShapeCasts ⟨4, ![a, b, 1, 1]⟩) (i : Fin a) (j : Fin b) (u w : Fin 1) :
    shapeCast ⟨4, ![a, b, 1, 1]⟩ x h (ix4 i j u w) = x (ix2 i j) :=
  shapeCast_apply x h _ _ (by
    have hu : u.val = 0 := by omega
    have hw : w.val = 0 := by omega
    rw [Shape.rowMajor_val_four, Shape.rowMajor_val_two]
    show i.val * b + j.val = ((i.val * b + j.val) * 1 + u.val) * 1 + w.val
    simp only [hu, hw, Nat.mul_one, Nat.add_zero])

/-- An `[a, b]` array cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Broadcasts along unit axes, read at coordinates

A broadcast reads the operand at the same coordinates, with `0` on each axis where the operand has extent one. -/

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1, 1]` array broadcast to `[a, b, c, d]` reads, at `(i, j, k, l)`, the operand at `(i, j, 0, 0)`. -/
theorem broadcastTo_ab11_abcd_apply {a b c d : ℕ} (x : (⟨4, ![a, b, 1, 1]⟩ : Shape).Idx → α)
    (h : (⟨4, ![a, b, 1, 1]⟩ : Shape).Broadcasts ⟨4, ![a, b, c, d]⟩) (i : Fin a) (j : Fin b) (k : Fin c) (l : Fin d) :
    broadcastTo ⟨4, ![a, b, c, d]⟩ x h (ix4 i j k l) = x (ix4 i j (0 : Fin 1) (0 : Fin 1)) := by
  refine broadcastTo_apply x h (ix4 i j k l) (ix4 i j (0 : Fin 1) (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ => rfl

/-- A `[1, 1, c, d]` array broadcast to `[a, b, c, d]` reads, at `(i, j, k, l)`, the operand at `(0, 0, k, l)`. -/
theorem broadcastTo_11cd_abcd_apply {a b c d : ℕ} (x : (⟨4, ![1, 1, c, d]⟩ : Shape).Idx → α)
    (h : (⟨4, ![1, 1, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) k l) := by
  refine broadcastTo_apply x h (ix4 i j k l) (ix4 (0 : Fin 1) (0 : Fin 1) k l) fun ax => ?_
  match ax with
  | ⟨0, _⟩ => rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-! ## Sums along one axis, read at coordinates

A sum along one axis, at an index of the result, is the sum over that axis's coordinate of the source at the
result's index with the coordinate inserted. The accumulator is the zero word, the sum's neutral element. -/

/-- The sum of an `[a, b, c]` array along its last axis, at `(i, j)`. -/
theorem sum3_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec FTy.f32.bits) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun ax => Fin.ext (by
      match ax with
      | ⟨0, _⟩ => rfl
      | ⟨1, _⟩ => rfl
      | ⟨2, _⟩ => rfl)))

/-- The sum of an `[a, b, c, d]` array along its last axis, at `(i, j, k)`. -/
theorem sum4_axis3_apply {a b c d : ℕ} (src : FVec Ideal ⟨4, ![a, b, c, d]⟩ .f32)
    (h : Shape.Reduces ⟨4, ![a, b, c, d]⟩ [3] ⟨3, ![a, b, c]⟩) (hφ : FKind.Formats .f32)
    (hacc : (0x00000000#32 : BitVec FTy.f32.bits) = 0x00000000#32) (i : Fin a) (j : Fin b) (k : Fin c) :
    multiReduction .add [3] ⟨3, ![a, b, c]⟩ src 0x00000000#32 h hφ hacc (ix3 i j k) = ∑ l : Fin d, src (ix4 i j k l) :=
  (Ideal.multiReduction_add_single src 0x00000000#32 h hφ hacc (ix3 i j k)).trans
    (Finset.sum_congr rfl fun l _ => congrArg src (funext fun ax => Fin.ext (by
      match ax with
      | ⟨0, _⟩ => rfl
      | ⟨1, _⟩ => rfl
      | ⟨2, _⟩ => rfl
      | ⟨3, _⟩ => rfl)))

/-- The sum of an `[a, b]` array along its rows' entries, at `i`. -/
theorem sum2_axis1_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec FTy.f32.bits) = 0x00000000#32) (i : Fin a) :
    multiReduction .add [1] ⟨1, ![a]⟩ src 0x00000000#32 h hφ hacc (ix1 i) = ∑ j : Fin b, src (ix2 i j) :=
  (Ideal.multiReduction_add_single src 0x00000000#32 h hφ hacc (ix1 i)).trans
    (Finset.sum_congr rfl fun j _ => congrArg src (funext fun ax => Fin.ext (by
      match ax with
      | ⟨0, _⟩ => rfl
      | ⟨1, _⟩ => rfl)))

/-- The sum of a column `[a, 1]` down its rows, at the one index of the result. -/
theorem sum2_axis0_apply {a : ℕ} (src : FVec Ideal ⟨2, ![a, 1]⟩ .f32)
    (h : Shape.Reduces ⟨2, ![a, 1]⟩ [0] ⟨1, ![1]⟩) (hφ : FKind.Formats .f32)
    (hacc : (0x00000000#32 : BitVec FTy.f32.bits) = 0x00000000#32) (u : Fin 1) :
    multiReduction .add [0] ⟨1, ![1]⟩ src 0x00000000#32 h hφ hacc (ix1 u) = ∑ i : Fin a, src (ix2 i u) :=
  (Ideal.multiReduction_add_single src 0x00000000#32 h hφ hacc (ix1 u)).trans
    (Finset.sum_congr rfl fun i _ => congrArg src (funext fun ax => Fin.ext (by
      match ax with
      | ⟨0, _⟩ => rfl
      | ⟨1, _⟩ => rfl)))

/-! ## Pointwise operations at an index -/

section Pointwise
variable {s : Shape}

/-- A square root at an index is the square root of the element … -/
theorem sqrt_apply (a : FVec Ideal s .f32) (i : s.Idx) : sqrt a i = Ideal.sqrt (a i) := rfl
/-- … an exponential the exponential … -/
theorem exp_apply (a : FVec Ideal s .f32) (i : s.Idx) : exp a i = Ideal.exp (a i) := rfl
/-- … `log (1 + ·)` likewise … -/
theorem log1p_apply (a : FVec Ideal s .f32) (i : s.Idx) : log1p a i = Ideal.log1p (a i) := rfl
/-- … and an absolute value the larger of the element and its negation. -/
theorem absf_apply (a : FVec Ideal s .f32) (i : s.Idx) : absf a i = max (a i) (-(a i)) := rfl

end Pointwise

/-! ## A sum over a rank-4 index set as a fourfold sum

A rank-4 index set is the product of its four coordinate ranges, so a sum over it is the fourfold sum over the
coordinates; on the extended reals addition is a commutative monoid and no finiteness is asked. -/

/-- A rank-4 index is its four coordinates. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- So a sum over a rank-4 index set is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.LibCoordinateLayout

end
-- ==== Proof.KernelPay.lean ====
/-
  The two kernel bodies' arithmetic on the extended reals, read entry by entry.

  The pooling body sums the 64 lane entries of each (sample, channel) pair and multiplies by 2⁻⁶. The loss body takes a
  block of 256 rows and the whole 1024-row array: every row is divided by the larger of its Euclidean norm and ε, the
  block's unit rows are multiplied against all unit rows (a product contracted on both last axes), the exponential of
  twice each inner product is taken, and row r's value is 0 − log of the quotient of the sum over the columns carrying
  row r's label by the sum over all columns. When row r of the block is row i of the whole array, that value is the
  specification's loss of row i.
-/
import proofs.«157950_j14654428414813_2_alg».proof.Proof.Gen.KernelIdeal.Skeleton
import proofs.«157950_j14654428414813_2_alg».proof.Proof.Spec
import proofs.«157950_j14654428414813_2_alg».proof.Proof.LibRows
import proofs.«157950_j14654428414813_2_alg».proof.Proof.LibMatrixReduce
import proofs.«157950_j14654428414813_2_alg».proof.Proof.LibLinTile
import proofs.«157950_j14654428414813_2_alg».proof.Proof.LibCoordinateLayout
import Idealize.ShloMosaic.Lib.ValueIdx
import Idealize.ShloMosaic.Lib.Pipeline.Value

noncomputable section

open scoped BigOperators

namespace Cert.KernelPay

open Idealize.ShloMosaic Idealize.ShloMosaic.ValueIdx Cert.KernelIdeal Cert.KernelIdeal.Gen

/-- The pooling body at (p, q): the sum of the 64 lane entries times 2⁻⁶. -/
theorem pay0_apply (v0 : Vec Ideal S32x512x64 .f32) (p : Fin 32) (q : Fin 512) :
    Cert.KernelIdeal.Gen.k0_pay1 (F := Ideal) v0 (ix2 p q) = (∑ k : Fin 64, v0 (ix3 p q k)) * Cert.Spec.c64 := by
  unfold Cert.KernelIdeal.Gen.k0_pay1
  dsimp only
  rw [mulf_apply, Cert.LibCoordinateLayout.sum3_axis2_apply, shapeCast_self]
  rfl

/-! ## Reading the pointwise functions at an index -/

section Pointwise
variable {s : Shape} {φ : FTy}

theorem sqrt_at (x : FVec Ideal s φ) (i : s.Idx) : Idealize.ShloMosaic.sqrt x i = Ideal.sqrt (x i) := rfl
theorem exp_at (x : FVec Ideal s φ) (i : s.Idx) : Idealize.ShloMosaic.exp x i = Ideal.exp (x i) := rfl
theorem log_at (x : FVec Ideal s φ) (i : s.Idx) : Idealize.ShloMosaic.log x i = Ideal.log (x i) := rfl
theorem cmpi_at {w : Nat} (p : CmpIPredicate) (x y : IVec s w) (i : s.Idx) : cmpi p x y i = IntOp.cmpi p (x i) (y i) := rfl

end Pointwise

/-- A select on "the two words are equal" is the `if` on their equality. -/
theorem select_cmpi_eq {α : Type} {w : Nat} (x y : BitVec w) (a b : α) :
    Scalar.select (IntOp.cmpi .eq x y) a b = if x = y then a else b := by
  have hc : IntOp.cmpi .eq x y = BitVec.ofBool (x == y) := rfl
  rw [hc]
  unfold Scalar.select
  by_cases h : x = y
  · subst h; simp
  · have hb : (x == y) = false := by simpa using h
    rw [hb, if_neg h]
    exact if_neg (by decide)

/-! ## A matrix's rows scaled to unit length -/

/-- Each row divided by the larger of its Euclidean norm and a floor `e`, at `(r, c)`. -/
theorem unitRows_apply {m n : ℕ} (hm : m ≠ 1) (v : FVec Ideal (⟨2, ![m, n]⟩ : Shape) .f32)
    (hr : (⟨2, ![m, n]⟩ : Shape).Reduces [1] (⟨1, ![m]⟩ : Shape)) (hφ : FKind.Formats .f32)
    (hacc : (0x00000000#32 : BitVec FTy.f32.bits) = 0x00000000#32)
    (hc : (⟨1, ![m]⟩ : Shape).ShapeCasts ⟨2, ![m, 1]⟩) (hb : (⟨2, ![m, 1]⟩ : Shape).Broadcasts ⟨2, ![m, n]⟩)
    (e : Ideal .f32) (r : Fin m) (c : Fin n) :
    divf v (broadcastTo ⟨2, ![m, n]⟩
        (maximumf (Idealize.ShloMosaic.sqrt (shapeCast ⟨2, ![m, 1]⟩ (multiReduction .add [1] (⟨1, ![m]⟩ : Shape) (mulf v v) 0x00000000#32 hr hφ hacc) hc))
          (broadcast ⟨2, ![m, 1]⟩ e)) hb) (ix2 r c)
      = Ideal.div (v (ix2 r c)) (max (Ideal.sqrt (∑ k : Fin n, v (ix2 r k) * v (ix2 r k))) e) := by
  rw [divf_apply, Cert.Rows.bcast_col hm, maximumf_apply, sqrt_at, Cert.Rows.cast_col, Cert.LibCoordinateLayout.sum2_axis1_apply]
  rfl

/-- The block's product against the whole array, both contracted on the last axis, into the zero matrix, at `(a, b)`. -/
theorem dot_apply {φ₁ φ₂ : FTy} (l : FVec Ideal S256x512 φ₁) (r : FVec Ideal S1024x512 φ₂) (a : Fin 256) (b : Fin 1024) :
    matmul dot_S256x512_S1024x512_S256x1024_1_1_0_0_n_n none l r (constant (F := Ideal) S256x1024 .f32 0x00000000#32) (ix2 a b)
      = ∑ k : Fin 512, l (ix2 a k) * r (ix2 b k) :=
  Cert.LibLinTile.matmul_zero_apply dot_S256x512_S1024x512_S256x1024_1_1_0_0_n_n rfl rfl rfl rfl rfl rfl none l r a b

/-! ## The loss body, row by row -/

/-- Row `r` of the loss body's value, when the block's row `r` is the whole array's row `i` and carries its label:
    the specification's loss of row `i`. -/
theorem pay1_apply (f : Vec Ideal S1024x512 .f32) (lab : Vec Ideal S1024 .i32) (v0 : Vec Ideal S256x512 .f32) (v26 : Vec Ideal S256 .i32)
    (i : Fin 1024) (r : Fin 256) (h0 : ∀ c : Fin 512, v0 (ix2 r c) = f (ix2 i c)) (h26 : v26 (ix1 r) = lab (ix1 i)) :
    Cert.KernelIdeal.Gen.k1_pay1 (F := Ideal) v0 f v26 lab (ix1 r) = Cert.Spec.rowLoss f lab i := by
  unfold Cert.KernelIdeal.Gen.k1_pay1
  dsimp only
  rw [shapeCast_self, shapeCast_self]
  -- the array of exponentials, read twice: name it, and read it at (r, j)
  generalize hE : Idealize.ShloMosaic.exp (F := Ideal) (s := S256x1024) (φ := .f32) _ = E
  have hex : ∀ j : Fin 1024, E (ix2 r j) = Cert.Spec.ex f i j := by
    intro j
    rw [← hE, exp_at, mulf_apply, dot_apply]
    unfold Cert.Spec.ex Cert.Spec.sim
    refine congrArg Ideal.exp (congrArg₂ (· * ·) (Finset.sum_congr rfl fun k _ => ?_) rfl)
    rw [truncf_apply, truncf_apply, unitRows_apply (by decide), unitRows_apply (by decide)]
    unfold Cert.Spec.unit Cert.Spec.nrm
    simp only [h0]
    rfl
  rw [subf_apply, log_at, divf_apply, Cert.LibCoordinateLayout.sum2_axis1_apply, Cert.LibCoordinateLayout.sum2_axis1_apply]
  unfold Cert.Spec.rowLoss Cert.Spec.pos Cert.Spec.den
  refine congrArg₂ (· - ·) rfl (congrArg Ideal.log (congrArg₂ Ideal.div (Finset.sum_congr rfl fun j _ => ?_)
    (Finset.sum_congr rfl fun j _ => hex j)))
  rw [select_apply, cmpi_at, Cert.LibMatrixReduce.keptCol_apply (by decide), Cert.LibMatrixReduce.keptRow_apply,
    select_cmpi_eq, hex, h26]
  rfl

end Cert.KernelPay

end
-- ==== Proof.Value0.lean ====
/-
  What the pooling region leaves, at the exact extended reals: the pooled array `[1024, 512]` holds, at `(r, q)`,
  the sum of the 64 spatial entries of channel `q` of sample `r` times 2⁻⁶. Point `t` of the grid writes back the
  rows `32 t … 32 t + 31`; the 32 points' blocks tile the array. The features reach the region reshaped
  `[1024, 512, 64]`: position `k` of the last axis is the spatial entry `(k / 8, k % 8)`.
-/
import proofs.«157950_j14654428414813_2_alg».proof.Proof.Run
import proofs.«157950_j14654428414813_2_alg».proof.Proof.KernelPay
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ)

theorem off3 : (![0, 0, 0] : Fin 3 → Nat) = fun _ => 0 := funext fun a => by fin_cases a <;> rfl
theorem off2 : (![0, 0] : Fin 2 → Nat) = fun _ => 0 := funext fun a => by fin_cases a <;> rfl
theorem off1 : (![0] : Fin 1 → Nat) = fun _ => 0 := funext fun a => by fin_cases a <;> rfl

/-- The features as the pooling region finds them: the argument reshaped, position `k` of the last axis the spatial
    entry `(k / 8, k % 8)`. -/
theorem feat_apply (c : Dev nD) (r : Fin 1024) (q : Fin 512) (k : Fin 64) :
    (V1 m c main_v0 : S1024x512x64.Idx → EReal) (ix3 r q k)
      = (m ((c : Thread nD τ).loc main_arg0) : S1024x512x8x8.Idx → EReal) (ix4 r q (⟨k.val / 8, by omega⟩ : Fin 8) (⟨k.val % 8, by omega⟩ : Fin 8)) := by
  have e : (V1 m c main_v0 : S1024x512x64.Idx → EReal)
      = fun i => shapeCast S1024x512x64 (m ((c : Thread nD τ).loc main_arg0) : S1024x512x8x8.Idx → EReal) shapeCasts_S1024x512x8x8_S1024x512x64 i := by
    dsimp only [V1, W1, hostOps0]; after_results; rfl
  rw [e]
  refine shapeCast_apply _ _ (ix3 r q k) (ix4 r q _ _) ?_
  rw [Shape.rowMajor_val_three, Shape.rowMajor_val_four]
  show ((r.val * 512 + q.val) * 8 + k.val / 8) * 8 + k.val % 8 = (r.val * 512 + q.val) * 64 + k.val
  omega

/-- The printed index maps over the grid: point `t` reads and writes block `t` along the samples. -/
theorem idx0 : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- A block of 32 samples whose entries are the features' pools to the specification's means of those samples. -/
theorem pooled_block (x0 : Vec Ideal S32x512x64 .f32) (A : Cert.Spec.SX.Idx → EReal) (R : Fin 1024) (p : Fin 32) (q : Fin 512)
    (hx : ∀ k : Fin 64, x0 (ix3 p q k) = A (ix4 R q (⟨k.val / 8, by omega⟩ : Fin 8) (⟨k.val % 8, by omega⟩ : Fin 8))) :
    k0_pay1 (F := Ideal) x0 (ix2 p q) = Cert.Spec.pooled A R q := by
  rw [Cert.KernelPay.pay0_apply]
  unfold Cert.Spec.pooled
  exact congrArg (· * Cert.Spec.c64) (Finset.sum_congr rfl fun k _ => hx k)

/-- What point `t` writes back is block `t` of the pooled features. -/
theorem flushed_eq0 (c : Dev nD) (t : Fin cfg0.N) :
    (dat0 (V1 m) c).flushed 1 t
      = ((cfg0.win 1).blk t).view.read (Elt Ideal) (Cert.Spec.pooledArr (m ((c : Thread nD τ).loc main_arg0))) := by
  show (cfg0.win 1).cut (grid0.coords t) ((dat0 (V1 m) c).after 1 t) = _
  rw [after0_1]
  unfold out0_1
  rw [View.canon_unit_zero off2]
  simp only [View.ld_unit_zero (S := S32x512x64) off3]
  obtain ⟨e0, e1, e2, e3, e4⟩ := idx0 t
  have ht : t.val < 32 := lt_of_lt_of_eq t.isLt N_0
  funext j
  obtain ⟨p, q, rfl⟩ : ∃ (p : Fin 32) (q : Fin 512), j = ix2 p q := ⟨j 0, j 1, eq_ix2 j⟩
  show k0_pay1 (F := Ideal) (fun y => V1 m c main_v0 (((cfg0.win 0).blk t).view.emb y)) (ix2 p q)
    = Cert.Spec.pooledArr (m ((c : Thread nD τ).loc main_arg0)) (((cfg0.win 1).blk t).view.emb (ix2 p q))
  have hR : ((cfg0.win 1).blk t).view.emb (ix2 p q) = ix2 (⟨32 * t.val + p.val, by omega⟩ : Fin 1024) q := by
    funext a; apply Fin.ext
    match a with
    | ⟨0, _⟩ => show win0_1.index t (0 : Fin 2) * 32 + 1 * p.val = 32 * t.val + p.val; omega
    | ⟨1, _⟩ => show win0_1.index t (1 : Fin 2) * 512 + 1 * q.val = q.val; omega
  rw [hR, Cert.Spec.pooledArr_ix2]
  refine pooled_block _ _ _ p q fun k => ?_
  show V1 m c main_v0 (((cfg0.win 0).blk t).view.emb (ix3 p q k)) = _
  have h3 : ((cfg0.win 0).blk t).view.emb (ix3 p q k) = ix3 (⟨32 * t.val + p.val, by omega⟩ : Fin 1024) q k := by
    funext a; apply Fin.ext
    match a with
    | ⟨0, _⟩ => show win0_0.index t (0 : Fin 3) * 32 + 1 * p.val = 32 * t.val + p.val; omega
    | ⟨1, _⟩ => show win0_0.index t (1 : Fin 3) * 512 + 1 * q.val = q.val; omega
    | ⟨2, _⟩ => show win0_0.index t (2 : Fin 3) * 64 + 1 * k.val = k.val; omega
  rw [h3]
  exact feat_apply m c _ q k

/-- An index of the pooled array is in point `t`'s block iff each coordinate is in the block's range. -/
theorem mem_blk0 (t : Fin cfg0.N) (i : S1024x512.Idx) :
    i ∈ ((cfg0.win 1).blk t).view.set ↔ ∀ a : Fin 2, win0_1.index t a * S32x512.size a ≤ (i a).val ∧ (i a).val < win0_1.index t a * S32x512.size a + S32x512.size a := by
  show i ∈ ((View.whole main_v1).slice (win0_1.rect t)).set ↔ _
  rw [View.set_slice_whole, Rect.mem_set_unit]
  exact Iff.rfl

/-- Every index is in the block of the point that owns its sample. -/
theorem cover0 (i : S1024x512.Idx) : ∃ t : Fin cfg0.N, (cfg0.win 1).flush t = true ∧ i ∈ ((cfg0.win 1).blk t).view.set := by
  have hi0 : (i 0).val < 1024 := (i 0).isLt
  have hi1 : (i 1).val < 512 := (i 1).isLt
  refine ⟨⟨(i 0).val / 32, by rw [show cfg0.N = 32 from N_0]; omega⟩, flush0_1 _, ?_⟩
  rw [mem_blk0]
  obtain ⟨e0, e1, e2, e3, e4⟩ := idx0 ⟨(i 0).val / 32, by rw [show cfg0.N = 32 from N_0]; omega⟩
  intro a
  match a with
  | ⟨0, _⟩ =>
    show win0_1.index _ (0 : Fin 2) * 32 ≤ (i 0).val ∧ (i 0).val < win0_1.index _ (0 : Fin 2) * 32 + 32
    rw [e3]; show (i 0).val / 32 * 32 ≤ (i 0).val ∧ (i 0).val < (i 0).val / 32 * 32 + 32; omega
  | ⟨1, _⟩ =>
    show win0_1.index _ (1 : Fin 2) * 512 ≤ (i 1).val ∧ (i 1).val < win0_1.index _ (1 : Fin 2) * 512 + 512
    rw [e4]; omega

/-- THE POOLED ARRAY after the pooling region: the specification's, of the argument features. -/
theorem final0 (c : Dev nD) : (dat0 (V1 m) c).arrAt 1 cfg0.N = Cert.Spec.pooledArr (m ((c : Thread nD τ).loc main_arg0)) :=
  (dat0 (V1 m) c).arrAt_eq_of_cover 1 _ (fun t _ => flushed_eq0 m c t) cover0

/-- So the loss region finds the pooled array at the specification's, and the labels as launched. -/
theorem V2_pooled (c : Dev nD) : V2 m c main_v1 = Cert.Spec.pooledArr (m ((c : Thread nD τ).loc main_arg0)) :=
  (W2_arr m c 1).trans (final0 m c)
theorem V2_labels (c : Dev nD) : V2 m c main_arg1 = m ((c : Thread nD τ).loc main_arg1) :=
  (W2_of_ne m c main_arg1 (by decide)).trans ((W1_of m c main_arg1 (by decide)).trans rfl)

end Cert.KernelIdeal.Hand

end
-- ==== Proof.Value1.lean ====
/-
  What the loss region leaves, at the exact extended reals, and the program's result. Point `t` of the loss
  region's grid holds the pooled rows `256 t … 256 t + 255` and their labels beside the whole pooled array and the
  whole label vector, and writes back those rows' losses; the 4 points' blocks tile the vector of 1024 row losses,
  which therefore ends at the specification's `lossVec` of the argument features and labels. The host then divides
  the sum of the row losses by 1024.
-/
import proofs.«157950_j14654428414813_2_alg».proof.Proof.Value0

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ)

/-- The printed index maps over the grid: point `t` reads block `t` of the pooled rows and of the labels, the one
    block of the two whole-array windows, and writes block `t` of the row losses. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = t.val ∧ win1_3.index t (0 : Fin 1) = 0 ∧ win1_4.index t (0 : Fin 1) = t.val :=
  (by decide +kernel : ∀ t : Fin grid1.N, _)

/-- What point `t` writes back is block `t` of the specification's row losses. -/
theorem flushed_eq1 (c : Dev nD) (t : Fin cfg1.N) :
    (dat1 (V2 m) c).flushed 4 t
      = ((cfg1.win 4).blk t).view.read (Elt Ideal)
          (Cert.Spec.lossVec (m ((c : Thread nD τ).loc main_arg0)) (m ((c : Thread nD τ).loc main_arg1))) := by
  show (cfg1.win 4).cut (grid1.coords t) ((dat1 (V2 m) c).after 4 t) = _
  rw [after1_4]
  unfold out1_4
  rw [View.canon_unit_zero off1]
  simp only [View.ld_unit_zero (S := S256x512) off2, View.ld_unit_zero (S := S1024x512) off2,
    View.ld_unit_zero (S := S256) off1, View.ld_unit_zero (S := S1024) off1]
  obtain ⟨e0, e1, e2, e3, e4, e5, e6⟩ := idx1 t
  have ht : t.val < 4 := lt_of_lt_of_eq t.isLt N_1
  funext j
  obtain ⟨r, rfl⟩ : ∃ r : Fin 256, j = ix1 r := ⟨j 0, eq_ix1 j⟩
  show k1_pay1 (F := Ideal) (fun y : S256x512.Idx => V2 m c main_v1 (((cfg1.win 0).blk t).view.emb y))
        (fun y : S1024x512.Idx => V2 m c main_v1 (((cfg1.win 1).blk t).view.emb y))
        (fun y : S256.Idx => V2 m c main_arg1 (((cfg1.win 2).blk t).view.emb y))
        (fun y : S1024.Idx => V2 m c main_arg1 (((cfg1.win 3).blk t).view.emb y)) (ix1 r)
      = Cert.Spec.lossVec (m ((c : Thread nD τ).loc main_arg0)) (m ((c : Thread nD τ).loc main_arg1)) (((cfg1.win 4).blk t).view.emb (ix1 r))
  have hw1 : (fun y : S1024x512.Idx => V2 m c main_v1 (((cfg1.win 1).blk t).view.emb y)) = V2 m c main_v1 :=
    funext fun y => congrArg (V2 m c main_v1) (by
      funext a; apply Fin.ext
      match a with
      | ⟨0, _⟩ => show win1_1.index t (0 : Fin 2) * 1024 + 1 * (y 0).val = (y 0).val; omega
      | ⟨1, _⟩ => show win1_1.index t (1 : Fin 2) * 512 + 1 * (y 1).val = (y 1).val; omega)
  have hw3 : (fun y : S1024.Idx => V2 m c main_arg1 (((cfg1.win 3).blk t).view.emb y)) = V2 m c main_arg1 :=
    funext fun y => congrArg (V2 m c main_arg1) (by
      funext a; apply Fin.ext
      match a with
      | ⟨0, _⟩ => show win1_3.index t (0 : Fin 1) * 1024 + 1 * (y 0).val = (y 0).val; omega)
  rw [hw1, hw3]
  have hR : ((cfg1.win 4).blk t).view.emb (ix1 r) = ix1 (⟨256 * t.val + r.val, by omega⟩ : Fin 1024) := by
    funext a; apply Fin.ext
    match a with
    | ⟨0, _⟩ => show win1_4.index t (0 : Fin 1) * 256 + 1 * r.val = 256 * t.val + r.val; omega
  rw [hR, Cert.Spec.lossVec_ix1, V2_pooled m c, V2_labels m c]
  refine Cert.KernelPay.pay1_apply _ _ _ _ (⟨256 * t.val + r.val, by omega⟩ : Fin 1024) r (fun cc => ?_) ?_
  · show Cert.Spec.pooledArr (m ((c : Thread nD τ).loc main_arg0)) (((cfg1.win 0).blk t).view.emb (ix2 r cc)) = _
    refine congrArg _ ?_
    funext a; apply Fin.ext
    match a with
    | ⟨0, _⟩ => show win1_0.index t (0 : Fin 2) * 256 + 1 * r.val = 256 * t.val + r.val; omega
    | ⟨1, _⟩ => show win1_0.index t (1 : Fin 2) * 512 + 1 * cc.val = cc.val; omega
  · show m ((c : Thread nD τ).loc main_arg1) (((cfg1.win 2).blk t).view.emb (ix1 r)) = _
    refine congrArg _ ?_
    funext a; apply Fin.ext
    match a with
    | ⟨0, _⟩ => show win1_2.index t (0 : Fin 1) * 256 + 1 * r.val = 256 * t.val + r.val; omega

/-- An index of the vector of row losses is in point `t`'s block iff it is in the block's range. -/
theorem mem_blk1 (t : Fin cfg1.N) (i : S1024.Idx) :
    i ∈ ((cfg1.win 4).blk t).view.set ↔ ∀ a : Fin 1, win1_4.index t a * S256.size a ≤ (i a).val ∧ (i a).val < win1_4.index t a * S256.size a + S256.size a := by
  show i ∈ ((View.whole main_v2).slice (win1_4.rect t)).set ↔ _
  rw [View.set_slice_whole, Rect.mem_set_unit]
  exact Iff.rfl

/-- Every row is in the block of the point that owns it. -/
theorem cover1 (i : S1024.Idx) : ∃ t : Fin cfg1.N, (cfg1.win 4).flush t = true ∧ i ∈ ((cfg1.win 4).blk t).view.set := by
  have hi0 : (i 0).val < 1024 := (i 0).isLt
  refine ⟨⟨(i 0).val / 256, by rw [show cfg1.N = 4 from N_1]; omega⟩, flush1_4 _, ?_⟩
  rw [mem_blk1]
  obtain ⟨e0, e1, e2, e3, e4, e5, e6⟩ := idx1 ⟨(i 0).val / 256, by rw [show cfg1.N = 4 from N_1]; omega⟩
  intro a
  match a with
  | ⟨0, _⟩ =>
    show win1_4.index _ (0 : Fin 1) * 256 ≤ (i 0).val ∧ (i 0).val < win1_4.index _ (0 : Fin 1) * 256 + 256
    rw [e6]; show (i 0).val / 256 * 256 ≤ (i 0).val ∧ (i 0).val < (i 0).val / 256 * 256 + 256; omega

/-- THE ROW LOSSES after the loss region: the specification's, of the argument features and labels. -/
theorem final1 (c : Dev nD) :
    (dat1 (V2 m) c).arrAt 4 cfg1.N = Cert.Spec.lossVec (m ((c : Thread nD τ).loc main_arg0)) (m ((c : Thread nD τ).loc main_arg1)) :=
  (dat1 (V2 m) c).arrAt_eq_of_cover 4 _ (fun t _ => flushed_eq1 m c t) cover1

/-- The mean of a vector of 1024 row losses as the host computes it: their sum from zero, divided by the word of 1024. -/
def meanOf (v : S1024.Idx → EReal) : S_.Idx → EReal :=
  Host.divf (F := Ideal) (Host.reduceAdd (F := Ideal) (φ := .f32) v (constant (F := Ideal) S_ .f32 0x00000000#32) reducesTo_S1024_S_d0 h_S_)
    (constant (F := Ideal) S_ .f32 0x44800000#32)

/-- THE RESULT: the mean of the specification's row losses. -/
theorem result_eq (c : Dev nD) :
    W4 m c (Proc.devRef .tc main_v4)
      = meanOf (Cert.Spec.lossVec (m ((c : Thread nD τ).loc main_arg0)) (m ((c : Thread nD τ).loc main_arg1))) := by
  have e : (W4 m c (Proc.devRef .tc main_v4) : S_.Idx → EReal) = meanOf (W3 m c (Proc.devRef .tc main_v2)) := by
    show StableHlo.after hostOps2 (W3 m c) (Proc.devRef .tc main_v4) = _
    after_results; rfl
  rw [e, W3_v2, final1]

end Cert.KernelIdeal.Hand

end
-- ==== Proof.LibIdealReal.lean ====
/-
  Real numbers inside the extended reals: the float pattern of one, the quotient of two reals by the
  extended-real division, and arrays of reals read as arrays of extended reals by coordinates.
-/
import Idealize.ShloMosaic.PureOps.Ideal.Laws
import Idealize.ShloMosaic.Lib.ValueIdx

noncomputable section

open Idealize.ShloMosaic Idealize.ShloMosaic.ValueIdx

namespace Cert.IdealReal

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A matrix of reals as an array of extended reals. -/
def lift2 {n0 n1 : Nat} (f : Fin n0 → Fin n1 → ℝ) : (⟨2, ![n0, n1]⟩ : Shape).Idx → EReal :=
  fun i => ((f (i 0) (i 1) : ℝ) : EReal)

theorem lift2_ix2 {n0 n1 : Nat} (f : Fin n0 → Fin n1 → ℝ) (a : Fin n0) (b : Fin n1) :
    lift2 f (ix2 a b) = ((f a b : ℝ) : EReal) := rfl

/-- An array all of whose entries are given reals is the lifted matrix. -/
theorem eq_lift2 {n0 n1 : Nat} (v : (⟨2, ![n0, n1]⟩ : Shape).Idx → EReal) (f : Fin n0 → Fin n1 → ℝ)
    (h : ∀ a b, v (ix2 a b) = ((f a b : ℝ) : EReal)) : v = lift2 f := by
  funext i
  rw [eq_ix2 i]
  exact h _ _

end Cert.IdealReal

end
-- ==== Proof.RefLoss.lean ====
/-
  The reference program's row losses are the specification's.

  The reference pools the feature array by summing its two spatial axes and dividing by 64; the specification
  sums the 64 positions `(k / 8, k % 8)` and multiplies by 2⁻⁶. From the pooled array on, the two agree
  operation by operation, up to: a sum's zero initial value, division by one half against the product with two,
  negation against subtraction from zero, the transposed right factor of the matrix product, and the label
  mask written as a comparison and a selection.
-/
import proofs.«157950_j14654428414813_2_alg».proof.Proof.Gen.ReferenceIdeal.Read
import proofs.«157950_j14654428414813_2_alg».proof.Proof.Spec
import proofs.«157950_j14654428414813_2_alg».proof.Proof.LibIdealReal

noncomputable section

namespace Cert.RefLoss

open Cert.ReferenceIdeal Cert.ReferenceIdeal.Gen Cert.ReferenceIdeal.Read Idealize.ShloMosaic Idealize.ShloMosaic.ValueIdx

/-! ## Four single-precision words as reals -/

/-- The pattern `0x42800000` is 64. -/
theorem ofBits_64 : Ideal.ofBits .f32 0x42800000#32 = ((64 : ℝ) : EReal) := by
  simp [Ideal.ofBits, Ideal.ieee]
  have h : ((8388608 : ℝ) * ((2 : ℝ) ^ 17)⁻¹) = 64 := by norm_num
  exact_mod_cast h

/-- The pattern `0x3C800000` is 2⁻⁶. -/
theorem ofBits_inv64 : Ideal.ofBits .f32 0x3C800000#32 = ((1 / 64 : ℝ) : EReal) := by
  simp [Ideal.ofBits, Ideal.ieee]
  have h : ((8388608 : ℝ) * ((2 : ℝ) ^ 29)⁻¹) = 64⁻¹ := by norm_num
  exact_mod_cast h

/-- The pattern `0x3F000000` is one half. -/
theorem ofBits_half : Ideal.ofBits .f32 0x3F000000#32 = ((1 / 2 : ℝ) : EReal) := by
  simp [Ideal.ofBits, Ideal.ieee]
  have h : ((8388608 : ℝ) * ((2 : ℝ) ^ 24)⁻¹) = 2⁻¹ := by norm_num
  exact_mod_cast h

/-- The pattern `0x40000000` is two. -/
theorem ofBits_two : Ideal.ofBits .f32 0x40000000#32 = ((2 : ℝ) : EReal) := by
  simp [Ideal.ofBits, Ideal.ieee]
  have h : ((8388608 : ℝ) * ((2 : ℝ) ^ 22)⁻¹) = 2 := by norm_num
  exact_mod_cast h

/-- Dividing by the word of 64 is multiplying by the word of 2⁻⁶. -/
theorem div_64 (x : EReal) : Ideal.div x (Ideal.ofBits .f32 0x42800000#32) = x * Cert.Spec.c64 := by
  rw [ofBits_64, Ideal.div_coe (by norm_num), Cert.Spec.c64, ofBits_inv64]

/-- Dividing by the word of one half is multiplying by the word of two. -/
theorem div_half (x : EReal) : Ideal.div x (Ideal.ofBits .f32 0x3F000000#32) = x * Cert.Spec.two := by
  rw [ofBits_half, Ideal.div_coe (by norm_num), Cert.Spec.two, ofBits_two]
  norm_num

/-! ## The sum over the two spatial axes -/

/-- The spatial position `(h, w)` of a feature index as one number `8 h + w` below 64. -/
def pos64 (i : S1024x512x8x8.Idx) : Fin 64 :=
  ⟨(i 2).val * 8 + (i 3).val, by
    have h2 : (i 2).val < 8 := (i 2).isLt
    have h3 : (i 3).val < 8 := (i 3).isLt
    omega⟩

/-- The feature index of sample `r`, channel `q` at the spatial position numbered `k`. -/
def at64 (r : Fin 1024) (q : Fin 512) (k : Fin 64) : S1024x512x8x8.Idx :=
  ix4 r q (⟨k.val / 8, by omega⟩ : Fin 8) (⟨k.val % 8, by omega⟩ : Fin 8)

theorem drop_at64 (h : S1024x512x8x8.ReducesTo [2, 3] S1024x512) (r : Fin 1024) (q : Fin 512) (k : Fin 64) :
    h.drop (at64 r q k) = ix2 r q := by
  funext b
  refine Fin.ext ?_
  match b with
  | ⟨0, _⟩ => exact h.drop_apply_val_of_eq (at64 r q k) 0 0
  | ⟨1, _⟩ => exact h.drop_apply_val_of_eq (at64 r q k) 1 1

theorem at64_pos64 (h : S1024x512x8x8.ReducesTo [2, 3] S1024x512) (r : Fin 1024) (q : Fin 512) (i : S1024x512x8x8.Idx)
    (hi : h.drop i = ix2 r q) : at64 r q (pos64 i) = i := by
  have e0 : (i 0).val = r.val := (h.drop_apply_val_of_eq i 0 0).symm.trans (congrArg (fun j : S1024x512.Idx => (j 0).val) hi)
  have e1 : (i 1).val = q.val := (h.drop_apply_val_of_eq i 1 1).symm.trans (congrArg (fun j : S1024x512.Idx => (j 1).val) hi)
  have h2 : (i 2).val < 8 := (i 2).isLt
  have h3 : (i 3).val < 8 := (i 3).isLt
  funext a
  refine Fin.ext ?_
  match a with
  | ⟨0, _⟩ => exact e0.symm
  | ⟨1, _⟩ => exact e1.symm
  | ⟨2, _⟩ => show ((i 2).val * 8 + (i 3).val) / 8 = (i 2).val; omega
  | ⟨3, _⟩ => show ((i 2).val * 8 + (i 3).val) % 8 = (i 3).val; omega

theorem pos64_at64 (r : Fin 1024) (q : Fin 512) (k : Fin 64) : pos64 (at64 r q k) = k := by
  refine Fin.ext ?_
  show k.val / 8 * 8 + k.val % 8 = k.val
  omega

/-- The sum over the axes 2 and 3 of a `[1024, 512, 8, 8]` array, at `(r, q)`: the initial value plus the 64
    spatial entries of channel `q` of sample `r`. -/
theorem sum23_apply (h : S1024x512x8x8.ReducesTo [2, 3] S1024x512) (x : S1024x512x8x8.Idx → EReal) (init : EReal)
    (r : Fin 1024) (q : Fin 512) :
    Ideal.hostReduceAdd h x init (ix2 r q) = init + ∑ k : Fin 64, x (at64 r q k) := by
  unfold Ideal.hostReduceAdd
  refine congrArg (init + ·) ?_
  refine Finset.sum_nbij' pos64 (at64 r q) ?_ ?_ ?_ ?_ ?_
  · intro i _; exact Finset.mem_univ _
  · intro k _; exact Finset.mem_filter.2 ⟨Finset.mem_univ _, drop_at64 h r q k⟩
  · intro i hi; exact at64_pos64 h r q i (Finset.mem_filter.1 hi).2
  · intro k _; exact pos64_at64 r q k
  · intro i hi; rw [at64_pos64 h r q i (Finset.mem_filter.1 hi).2]

/-- The reference's pooled array is the specification's. -/
theorem v2_apply (x0 : (⟨S1024x512x8x8, .f32⟩ : BufTy).Contents (Elt Ideal)) (r : Fin 1024) (q : Fin 512) :
    val_main_v2 (F := Ideal) x0 (ix2 r q) = Cert.Spec.pooled x0 r q := by
  rw [val_main_v2_apply, val_main_v1_apply, val_main_cst_0_apply]
  unfold val_main_v0
  simp only [Host.reduceAdd, Ideal.hostReduceAdd_def, Ideal.hostDivf_def, Ideal.ofBits_def]
  rw [sum23_apply, val_main_cst_apply, Ideal.ofBits_def, Ideal.ofBits_zero_f32, zero_add, div_64]
  rfl

theorem v2_eq (x0 : (⟨S1024x512x8x8, .f32⟩ : BufTy).Contents (Elt Ideal)) :
    val_main_v2 (F := Ideal) x0 = Cert.Spec.pooledArr x0 := by
  funext j
  obtain ⟨r, q, rfl⟩ : ∃ (r : Fin 1024) (q : Fin 512), j = ix2 r q := ⟨j 0, j 1, eq_ix2 j⟩
  rw [v2_apply, Cert.Spec.pooledArr_ix2]

/-! ## From the pooled array to the row losses

Every stage below is read at explicit coordinates, as a function of the pooled array `val_main_v2 x0`, which stays
closed throughout. -/

section Chain

variable (x0 : (⟨S1024x512x8x8, .f32⟩ : BufTy).Contents (Elt Ideal)) (x1 : (⟨S1024, .i32⟩ : BufTy).Contents (Elt Ideal))

/-- A comparison for equality followed by a selection is the `if` on the equality. -/
theorem select_cmpi_eq {α : Type} (a b : BitVec 32) (A B : α) :
    Scalar.select (IntOp.cmpi .eq a b) A B = if a = b then A else B := by
  unfold Scalar.select IntOp.cmpi
  by_cases h : a = b
  · simp [h]
  · have hb : (a == b) = false := beq_eq_false_iff_ne.mpr h
    simp [h, hb]

/-- The floored norm of row `r`: the square root of the row's sum of squares (a sum from zero), against ε. -/
theorem v5_apply (r : Fin 1024) :
    val_main_v5 (F := Ideal) x0 (ix2 r (0 : Fin 1)) = Cert.Spec.nrm (val_main_v2 (F := Ideal) x0) r := by
  rw [val_main_v5_apply, val_main_v3_apply, val_main_call0_v2_apply, val_main_call0_v1_apply, val_main_v4_apply,
    val_main_cst_1_apply, val_main_call0_cst_apply]
  simp only [val_main_call0_v0_apply, Ideal.maximumf_def, Ideal.hostUnary_sqrt_def, Ideal.mulf_def, Ideal.ofBits_def,
    Ideal.ofBits_zero_f32, zero_add]
  have e : ∀ k : Fin 512, idx_main_call0_v1 (idx_main_call0_v2 (ix2 r (0 : Fin 1))) k = ix2 r k := fun k =>
    funext fun a => Fin.ext (by match a with | ⟨0, _⟩ => rfl | ⟨1, _⟩ => rfl)
  simp only [e]
  rfl

/-- Row `r` scaled to unit length, at column `c`. -/
theorem v7_apply (r : Fin 1024) (c : Fin 512) :
    val_main_v7 (F := Ideal) x0 (ix2 r c) = Cert.Spec.unit (val_main_v2 (F := Ideal) x0) r c := by
  have e : idx_main_v6 (ix2 r c) = ix2 r (0 : Fin 1) :=
    funext fun a => Fin.ext (by match a with | ⟨0, _⟩ => rfl | ⟨1, _⟩ => rfl)
  rw [val_main_v7_apply, val_main_v6_apply, Ideal.hostDivf_def, e, v5_apply]
  rfl

/-- The product of the unit rows with their transpose, at `(i, j)`: the inner product of rows `i` and `j`. -/
theorem v9_apply (i j : Fin 1024) :
    val_main_v9 (F := Ideal) x0 (ix2 i j) = Cert.Spec.sim (val_main_v2 (F := Ideal) x0) i j := by
  rw [val_main_v9_apply]
  unfold Cert.Spec.sim
  refine Finset.sum_congr rfl fun k _ => ?_
  have el : lidx_main_v9 (ix2 i j) k = ix2 i k :=
    funext fun a => Fin.ext (by match a with | ⟨0, _⟩ => rfl | ⟨1, _⟩ => rfl)
  have er : idx_main_v8 (ridx_main_v9 (ix2 i j) k) = ix2 j k :=
    funext fun a => Fin.ext (by match a with | ⟨0, _⟩ => rfl | ⟨1, _⟩ => rfl)
  rw [val_main_v8_apply, el, er, v7_apply, v7_apply]

/-- The exponential of the similarity over one half, that is, times two. -/
theorem v12_apply (i j : Fin 1024) :
    val_main_v12 (F := Ideal) x0 (ix2 i j) = Cert.Spec.ex (val_main_v2 (F := Ideal) x0) i j := by
  rw [val_main_v12_apply, val_main_v11_apply, val_main_v10_apply, val_main_cst_2_apply, v9_apply,
    Ideal.hostUnary_exp_def, Ideal.hostDivf_def, Ideal.ofBits_def, div_half]
  rfl

/-- The masked exponentials: kept where the two rows carry the same label, zero elsewhere. -/
theorem v18_apply (i j : Fin 1024) :
    val_main_v18 (F := Ideal) x0 x1 (ix2 i j)
      = if x1 (ix1 i) = x1 (ix1 j) then Cert.Spec.ex (val_main_v2 (F := Ideal) x0) i j else Cert.Spec.zero := by
  have ea : idx_main_v13 (idx_main_v15 (ix2 i j)) = ix1 i :=
    funext fun a => Fin.ext (by match a with | ⟨0, _⟩ => rfl)
  have eb : idx_main_v14 (idx_main_v16 (ix2 i j)) = ix1 j :=
    funext fun a => Fin.ext (by match a with | ⟨0, _⟩ => rfl)
  rw [val_main_v18_apply, val_main_v17_apply, val_main_v15_apply, val_main_v13_apply, val_main_v16_apply,
    val_main_v14_apply, val_main_call1_v1_apply, val_main_call1_v0_apply, val_main_cst_3_apply, v12_apply, ea, eb,
    select_cmpi_eq]
  rfl

/-- The sum of the masked exponentials of row `i`. -/
theorem v19_apply (i : Fin 1024) :
    val_main_v19 (F := Ideal) x0 x1 (ix1 i) = Cert.Spec.pos (val_main_v2 (F := Ideal) x0) x1 i := by
  rw [val_main_v19_apply, val_main_cst_4_apply, Ideal.ofBits_def, Ideal.ofBits_zero_f32, zero_add]
  unfold Cert.Spec.pos
  refine Finset.sum_congr rfl fun k _ => ?_
  have e : idx_main_v19 (ix1 i) k = ix2 i k :=
    funext fun a => Fin.ext (by match a with | ⟨0, _⟩ => rfl | ⟨1, _⟩ => rfl)
  rw [e, v18_apply]

/-- The sum of all the exponentials of row `i`. -/
theorem v20_apply (i : Fin 1024) :
    val_main_v20 (F := Ideal) x0 (ix1 i) = Cert.Spec.den (val_main_v2 (F := Ideal) x0) i := by
  rw [val_main_v20_apply, val_main_cst_5_apply, Ideal.ofBits_def, Ideal.ofBits_zero_f32, zero_add]
  unfold Cert.Spec.den
  refine Finset.sum_congr rfl fun k _ => ?_
  have e : idx_main_v20 (ix1 i) k = ix2 i k :=
    funext fun a => Fin.ext (by match a with | ⟨0, _⟩ => rfl | ⟨1, _⟩ => rfl)
  rw [e, v12_apply]

/-- Row `i`'s loss: the negated logarithm of the quotient, the specification's zero minus it. -/
theorem v23_apply (i : Fin 1024) :
    val_main_v23 (F := Ideal) x0 x1 (ix1 i) = Cert.Spec.rowLoss (val_main_v2 (F := Ideal) x0) x1 i := by
  rw [val_main_v23_apply, val_main_v22_apply, val_main_v21_apply, v19_apply, v20_apply, Ideal.hostNegf_def,
    Ideal.negf_def, Ideal.hostUnary_log_def, Ideal.hostDivf_def]
  unfold Cert.Spec.rowLoss Cert.Spec.zero
  rw [Ideal.ofBits_zero_f32, zero_sub]

end Chain

/-- The reference's vector of 1024 row losses is the specification's. -/
theorem ref_loss (x0 : (⟨S1024x512x8x8, .f32⟩ : BufTy).Contents (Elt Ideal)) (x1 : (⟨S1024, .i32⟩ : BufTy).Contents (Elt Ideal)) :
    Cert.ReferenceIdeal.Read.val_main_v23 (F := Ideal) x0 x1 = Cert.Spec.lossVec x0 x1 := by
  funext j
  obtain ⟨i, rfl⟩ : ∃ i : Fin 1024, j = ix1 i := ⟨j 0, eq_ix1 j⟩
  rw [Cert.Spec.lossVec_ix1, ← v2_eq, v23_apply]

end Cert.RefLoss

end
-- ==== Proof.lean ====
/-
  The two programs compute one function on the extended reals: the mean over 1024 samples of a contrastive loss.

  Both pool a feature array `[1024, 512, 8, 8]` over its 64 spatial positions (the kernel multiplies the sum by 2⁻⁶,
  the reference divides it by 64), scale each pooled row to unit length by the larger of its norm and a small ε,
  take all inner products of unit rows, exponentiate twice each product (the kernel multiplies by 2, the reference
  divides by 1/2), and for each row take minus the logarithm of the ratio of the exponentials summed over the rows
  that share its label to the exponentials summed over all rows (the kernel subtracts the logarithm from zero, the
  reference negates it). The kernel does this in two grids — 32 blocks of 32 samples for the pooling, 4 blocks of
  256 rows for the losses, each block of rows against the whole pooled array — and the reference on whole arrays;
  a row's loss depends on the block it is computed in only through the block's own rows, so the tiling does not
  show. Both end with the same host mean of the 1024 row losses. No law used needs the inputs to be finite.

  The frames: each kernel region runs as a pipeline whose body is executed symbolically once; the loss region's
  two pairs of windows on one array hold complementary halves of the array's share. The reference's frame and
  value are its generated run.
-/
import proofs.«157950_j14654428414813_2_alg».proof.Defs
import proofs.«157950_j14654428414813_2_alg».proof.Proof.Gen.Kernel
import proofs.«157950_j14654428414813_2_alg».proof.Proof.Gen.KernelIdeal
import proofs.«157950_j14654428414813_2_alg».proof.Proof.Gen.ReferenceIdeal
import proofs.«157950_j14654428414813_2_alg».proof.Proof.Gen.Pre_finite_inputs
import proofs.«157950_j14654428414813_2_alg».proof.Proof.KRun
import proofs.«157950_j14654428414813_2_alg».proof.Proof.Value1
import proofs.«157950_j14654428414813_2_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W4_main_arg0 m c),
     (h c _ (Cert.Kernel.Hand.mem_uc Cert.Kernel.main_arg1 (by decide))).trans (Cert.Kernel.Hand.W4_main_arg1 m c)⟩)
    (Cert.Kernel.Hand.run (F := Bits) m ρ)

/-- So does the kernel read at the extended reals. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W4_main_arg0 m c),
     (h c _ (Cert.KernelIdeal.Hand.mem_uc Cert.KernelIdeal.main_arg1 (by decide))).trans (Cert.KernelIdeal.Hand.W4_main_arg1 m c)⟩)
    (Cert.KernelIdeal.Hand.run (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result is the host mean of the specification's row losses: its last two operations are that
    mean, and its vector of row losses is the specification's. -/
theorem ref_mean (x0 : (⟨Cert.ReferenceIdeal.S1024x512x8x8, .f32⟩ : BufTy).Contents (Elt Ideal))
    (x1 : (⟨Cert.ReferenceIdeal.S1024, .i32⟩ : BufTy).Contents (Elt Ideal)) :
    Cert.ReferenceIdeal.Read.val_main_v25 (F := Ideal) x0 x1 = Cert.KernelIdeal.Hand.meanOf (Cert.Spec.lossVec x0 x1) := by
  rw [← Cert.RefLoss.ref_loss x0 x1]
  rfl

/-- From memories agreeing on the arguments both programs end with the mean of the specification's row losses. -/
theorem algebraic : Cert.algebraic_KernelIdeal_ReferenceIdeal := by
  intro m ρ m' ρ' _ hagree
  refine ⟨fun c => Cert.KernelIdeal.Hand.meanOf (Cert.Spec.lossVec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · exact (θ_run Cert.KernelIdeal.defs _ _).mono (fun r h c =>
      ⟨(h c _ (Cert.KernelIdeal.Hand.mem_uc Cert.KernelIdeal.main_v4 (by decide))).trans (Cert.KernelIdeal.Hand.result_eq m c),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c)⟩)
      (Cert.KernelIdeal.Hand.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v25_eq, (hagree c).1, (hagree c).2]
    exact ref_mean _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
